-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x384 : Shape := ⟨2, ![10000, 384]⟩
abbrev S2x200000 : Shape := ⟨2, ![2, 200000]⟩
abbrev S48x384 : Shape := ⟨2, ![48, 384]⟩
abbrev S48 : Shape := ⟨1, ![48]⟩
abbrev S384x48 : Shape := ⟨2, ![384, 48]⟩
abbrev S384 : Shape := ⟨1, ![384]⟩
abbrev S_ : Shape := ⟨0, ![]⟩

class Facts : Prop where
  bcast_S_S10000x384 : S_.BroadcastsInDim S10000x384 (![] : Fin 0 → Fin S10000x384.rank)
  reducesTo_S10000x384_S_d0_1 : S10000x384.ReducesTo [0, 1] S_
  h_S_ : 0 < S_.numel
  bcast_S_S48x384 : S_.BroadcastsInDim S48x384 (![] : Fin 0 → Fin S48x384.rank)
  reducesTo_S48x384_S_d0_1 : S48x384.ReducesTo [0, 1] S_
  bcast_S_S48 : S_.BroadcastsInDim S48 (![] : Fin 0 → Fin S48.rank)
  reducesTo_S48_S_d0 : S48.ReducesTo [0] S_
  bcast_S_S384x48 : S_.BroadcastsInDim S384x48 (![] : Fin 0 → Fin S384x48.rank)
  reducesTo_S384x48_S_d0_1 : S384x48.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg5 : FVec F S384 .f32) (main_v13 : IVec S_ 1) (main_v16 : IVec S384x48 1) : IVec S_ 1 :=
  let main_c_5 : IVec S_ 1 := constantI S_ 1 1#1
  let main_v17 : IVec S_ 1 := (fun x v => Host.reduce IntOp.andi x v reducesTo_S384x48_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S10000x384 .f32) (main_arg1 : IVec S2x200000 32) (main_arg2 : FVec F S48x384 .f32) (main_arg3 : FVec F S48 .f32) (main_arg4 : FVec F S384x48 .f32) (main_arg5 : FVec F S384 .f32) : IVec S_ 1 :=
  let main_v0 : FVec F S10000x384 .f32 := Host.absf main_arg0
  let main_cst : FVec F S_ .f32 := constant S_ .f32 0x7F800000#32
  let main_v1 : FVec F S10000x384 .f32 := broadcastInDim S10000x384 ![] bcast_S_S10000x384 main_cst
  let main_v2 : IVec S10000x384 1 := cmpf .olt main_v0 main_v1
  let main_c : IVec S_ 1 := constantI S_ 1 1#1
  let main_v3 : IVec S_ 1 := (fun x v => Host.reduce IntOp.andi x v reducesTo_S10000x384_S_d0_1 h_S_) main_v2 main_c
  let main_v4 : FVec F S48x384 .f32 := Host.absf main_arg2
  let main_cst_0 : FVec F S_ .f32 := constant S_ .f32 0x7F800000#32
  let main_v5 : FVec F S48x384 .f32 := broadcastInDim S48x384 ![] bcast_S_S48x384 main_cst_0
  let main_v6 : IVec S48x384 1 := cmpf .olt main_v4 main_v5
  let main_c_1 : IVec S_ 1 := constantI S_ 1 1#1
  let main_v7 : IVec S_ 1 := (fun x v => Host.reduce IntOp.andi x v reducesTo_S48x384_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S384x48 .f32 := Host.absf main_arg4
  let main_cst_4 : FVec F S_ .f32 := constant S_ .f32 0x7F800000#32
  let main_v15 : FVec F S384x48 .f32 := broadcastInDim S384x48 ![] bcast_S_S384x48 main_cst_4
  let main_v16 : IVec S384x48 1 := cmpf .olt main_v14 main_v15
  fn_part1 (F := F) main_arg5 main_v13 main_v16
-- ==== Kernel.lean ====
abbrev S10000x384 : Shape := ⟨2, ![10000, 384]⟩
abbrev S2x200000 : Shape := ⟨2, ![2, 200000]⟩
abbrev S48x384 : Shape := ⟨2, ![48, 384]⟩
abbrev S48 : Shape := ⟨1, ![48]⟩
abbrev S384x48 : Shape := ⟨2, ![384, 48]⟩
abbrev S384 : Shape := ⟨1, ![384]⟩
abbrev S10000 : Shape := ⟨1, ![10000]⟩
abbrev S1x200000 : Shape := ⟨2, ![1, 200000]⟩
abbrev S200000 : Shape := ⟨1, ![200000]⟩
abbrev S210000 : Shape := ⟨1, ![210000]⟩
abbrev S_ : Shape := ⟨0, ![]⟩
abbrev S210000x1 : Shape := ⟨2, ![210000, 1]⟩
abbrev S10000x48 : Shape := ⟨2, ![10000, 48]⟩
abbrev S1000x384 : Shape := ⟨2, ![1000, 384]⟩
abbrev S1000x48 : Shape := ⟨2, ![1000, 48]⟩
abbrev S210000x48 : Shape := ⟨2, ![210000, 48]⟩
abbrev S1x48 : Shape := ⟨2, ![1, 48]⟩
abbrev S1x384 : Shape := ⟨2, ![1, 384]⟩

abbrev nBuf : Space → Nat
  | .hbm => 85
  | .vmem => 16
  | .smem => 0
  | _ => 0

abbrev bufTy : (tb : Table) → Fin (tcTables nBuf tb) → BufTy
  | .hbm, ⟨0, _⟩ => ⟨S10000x384, .f32⟩
  | .hbm, ⟨1, _⟩ => ⟨S2x200000, .i32⟩
  | .hbm, ⟨2, _⟩ => ⟨S48x384, .f32⟩
  | .hbm, ⟨3, _⟩ => ⟨S48, .f32⟩
  | .hbm, ⟨4, _⟩ => ⟨S384x48, .f32⟩
  | .hbm, ⟨5, _⟩ => ⟨S384, .f32⟩
  | .hbm, ⟨6, _⟩ => ⟨S10000, .i32⟩
  | .hbm, ⟨7, _⟩ => ⟨S1x200000, .i32⟩
  | .hbm, ⟨8, _⟩ => ⟨S200000, .i32⟩
  | .hbm, ⟨9, _⟩ => ⟨S210000, .i32⟩
  | .hbm, ⟨10, _⟩ => ⟨S1x200000, .i32⟩
  | .hbm, ⟨11, _⟩ => ⟨S200000, .i32⟩
  | .hbm, ⟨12, _⟩ => ⟨S210000, .i32⟩
  | .hbm, ⟨13, _⟩ => ⟨S_, .f32⟩
  | .hbm, ⟨14, _⟩ => ⟨S210000, .f32⟩
  | .hbm, ⟨15, _⟩ => ⟨S_, .f32⟩
  | .hbm, ⟨16, _⟩ => ⟨S10000, .f32⟩
  | .hbm, ⟨17, _⟩ => ⟨S210000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S210000, .i32⟩
  | .hbm, ⟨29, _⟩ => ⟨S210000, .i1⟩
  | .hbm, ⟨30, _⟩ => ⟨S_, .i32⟩
  | .hbm, ⟨31, _⟩ => ⟨S210000, .i32⟩
  | .hbm, ⟨32, _⟩ => ⟨S210000, .i32⟩
  | .hbm, ⟨33, _⟩ => ⟨S210000, .i32⟩
  | .hbm, ⟨34, _⟩ => ⟨S210000x1, .i32⟩
  | .hbm, ⟨35, _⟩ => ⟨S210000, .f32⟩
  | .hbm, ⟨36, _⟩ => ⟨S_, .i32⟩
  | .hbm, ⟨37, _⟩ => ⟨S210000, .i32⟩
  | .hbm, ⟨38, _⟩ => ⟨S210000, .i1⟩
  | .hbm, ⟨39, _⟩ => ⟨S_, .i32⟩
  | .hbm, ⟨40, _⟩ => ⟨S210000, .i32⟩
  | .hbm, ⟨41, _⟩ => ⟨S210000, .i32⟩
  | .hbm, ⟨42, _⟩ => ⟨S210000, .i32⟩
  | .hbm, ⟨43, _⟩ => ⟨S210000x1, .i32⟩
  | .hbm, ⟨44, _⟩ => ⟨S210000, .f32⟩
  | .hbm, ⟨45, _⟩ => ⟨S210000, .f32⟩
  | .hbm, ⟨46, _⟩ => ⟨S384x48, .f32⟩
  | .hbm, ⟨47, _⟩ => ⟨S10000x48, .f32⟩
  | .hbm, ⟨48, _⟩ => ⟨S_, .i32⟩
  | .hbm, ⟨49, _⟩ => ⟨S210000, .i32⟩
  | .hbm, ⟨50, _⟩ => ⟨S210000, .i1⟩
  | .hbm, ⟨51, _⟩ => ⟨S_, .i32⟩
  | .hbm, ⟨52, _⟩ => ⟨S210000, .i32⟩
  | .hbm, ⟨53, _⟩ => ⟨S210000, .i32⟩
  | .hbm, ⟨54, _⟩ => ⟨S210000, .i32⟩
  | .hbm, ⟨55, _⟩ => ⟨S210000x1, .i32⟩
  | .hbm, ⟨56, _⟩ => ⟨S210000x48, .f32⟩
  | .hbm, ⟨57, _⟩ => ⟨S210000x1, .f32⟩
  | .hbm, ⟨58, _⟩ => ⟨S210000x48, .f32⟩
  | .hbm, ⟨59, _⟩ => ⟨S210000x48, .f32⟩
  | .hbm, ⟨60, _⟩ => ⟨S_, .f32⟩
  | .hbm, ⟨61, _⟩ => ⟨S10000x48, .f32⟩
  | .hbm, ⟨62, _⟩ => ⟨S210000x1, .i32⟩
  | .hbm, ⟨63, _⟩ => ⟨S10000x48, .f32⟩
  | .hbm, ⟨64, _⟩ => ⟨S1x48, .f32⟩
  | .hbm, ⟨65, _⟩ => ⟨S10000x48, .f32⟩
  | .hbm, ⟨66, _⟩ => ⟨S_, .i32⟩
  | .hbm, ⟨67, _⟩ => ⟨S210000, .i32⟩
  | .hbm, ⟨68, _⟩ => ⟨S210000, .i1⟩
  | .hbm, ⟨69, _⟩ => ⟨S_, .i32⟩
  | .hbm, ⟨70, _⟩ => ⟨S210000, .i32⟩
  | .hbm, ⟨71, _⟩ => ⟨S210000, .i32⟩
  | .hbm, ⟨72, _⟩ => ⟨S210000, .i32⟩
  | .hbm, ⟨73, _⟩ => ⟨S210000x1, .i32⟩
  | .hbm, ⟨74, _⟩ => ⟨S210000x48, .f32⟩
  | .hbm, ⟨75, _⟩ => ⟨S210000x1, .f32⟩
  | .hbm, ⟨76, _⟩ => ⟨S210000x48, .f32⟩
  | .hbm, ⟨77, _⟩ => ⟨S210000x48, .f32⟩
  | .hbm, ⟨78, _⟩ => ⟨S_, .f32⟩
  | .hbm, ⟨79, _⟩ => ⟨S10000x48, .f32⟩
  | .hbm, ⟨80, _⟩ => ⟨S210000x1, .i32⟩
  | .hbm, ⟨81, _⟩ => ⟨S10000x48, .f32⟩
  | .hbm, ⟨82, _⟩ => ⟨S48x384, .f32⟩
  | .hbm, ⟨83, _⟩ => ⟨S1x384, .f32⟩
  | .hbm, ⟨84, _⟩ => ⟨S10000x384, .f32⟩
  | .local _ .vmem, ⟨0, _⟩ => ⟨S1000x384, .f32⟩
  | .local _ .vmem, ⟨1, _⟩ => ⟨S1000x384, .f32⟩
  | .local _ .vmem, ⟨2, _⟩ => ⟨S384x48, .f32⟩
  | .local _ .vmem, ⟨3, _⟩ => ⟨S1000x48, .f32⟩
  | .local _ .vmem, ⟨4, _⟩ => ⟨S1000x48, .f32⟩
  | .local _ .vmem, ⟨5, _⟩ => ⟨S1000x48, .f32⟩
  | .local _ .vmem, ⟨6, _⟩ => ⟨S1000x48, .f32⟩
  | .local _ .vmem, ⟨7, _⟩ => ⟨S1x48, .f32⟩
  | .local _ .vmem, ⟨8, _⟩ => ⟨S1000x48, .f32⟩
  | .local _ .vmem, ⟨9, _⟩ => ⟨S1000x48, .f32⟩
  | .local _ .vmem, ⟨10, _⟩ => ⟨S1000x48, .f32⟩
  | .local _ .vmem, ⟨11, _⟩ => ⟨S1000x48, .f32⟩
  | .local _ .vmem, ⟨12, _⟩ => ⟨S48x384, .f32⟩
  | .local _ .vmem, ⟨13, _⟩ => ⟨S1x384, .f32⟩
  | .local _ .vmem, ⟨14, _⟩ => ⟨S1000x384, .f32⟩
  | .local _ .vmem, ⟨15, _⟩ => ⟨S1000x384, .f32⟩
  | _, _ => ⟨S10000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S48x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x200000_S1x200000_0_0 : S2x200000.Slices ![0, 0] S1x200000
  shapeCasts_S1x200000_S200000 : S1x200000.ShapeCasts S200000
  concatenates_S200000_S10000_S210000_d0 : Shape.Concatenates [S200000, S10000] S210000 0
  slices_S2x200000_S1x200000_1_0 : S2x200000.Slices ![1, 0] S1x200000
  bcast_S_S210000 : S_.BroadcastsInDim S210000 (![] : Fin 0 → Fin S210000.rank)
  bcast_S_S10000 : S_.BroadcastsInDim S10000 (![] : Fin 0 → Fin S10000.rank)
  bcast_S210000_S210000x1_0 : S210000.BroadcastsInDim S210000x1 (![0] : Fin 1 → Fin S210000x1.rank)
  transposes_S48x384_S384x48_1_0 : S48x384.Transposes [1, 0] S384x48
  inb_S1000x384_S1000x384_0_0 : ∀ a, (![0, 0] : Fin 2 → Nat) a + S1000x384.size a ≤ S1000x384.size a
  h_S1000x384 : 0 < S1000x384.numel
  bitsLt_bf16_f32 : FTy.bits .bf16 < FTy.bits .f32
  inb_S384x48_S384x48_0_0 : ∀ a, (![0, 0] : Fin 2 → Nat) a + S384x48.size a ≤ S384x48.size a
  h_S384x48 : 0 < S384x48.numel
  shapeCasts_S384x48_S384x48 : S384x48.ShapeCasts S384x48
  inb_S1000x48_S1000x48_0_0 : ∀ a, (![0, 0] : Fin 2 → Nat) a + S1000x48.size a ≤ S1000x48.size a
  h_S1000x48 : 0 < S1000x48.numel
  bcast_S210000x1_S210000x48_0_1 : S210000x1.BroadcastsInDim S210000x48 (![0, 1] : Fin 2 → Fin S210000x48.rank)
  bcast_S_S10000x48 : S_.BroadcastsInDim S10000x48 (![] : Fin 0 → Fin S10000x48.rank)
  shapeCasts_S48_S1x48 : S48.ShapeCasts S1x48
  shapeCasts_S1000x48_S1000x48 : S1000x48.ShapeCasts S1000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S1000x48 : S1x48.Broadcasts S1000x48
  transposes_S384x48_S48x384_1_0 : S384x48.Transposes [1, 0] S48x384
  shapeCasts_S384_S1x384 : S384.ShapeCasts S1x384
  inb_S48x384_S48x384_0_0 : ∀ a, (![0, 0] : Fin 2 → Nat) a + S48x384.size a ≤ S48x384.size a
  h_S48x384 : 0 < S48x384.numel
  shapeCasts_S48x384_S48x384 : S48x384.ShapeCasts S48x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  scatter_S10000_S210000x1_S210000_n_0_0_1_wf : ScatterDims.WF S10000 S210000x1 S210000 [] [0] [0] 1
  gather_S10000_S210000x1_S210000_n_0_n_n_0_1_1_wf : GatherDims.WF S10000 S210000x1 S210000 [] [0] [] [0] [] 1 ![1]
  dot_S1000x384_S384x48_S1000x48_1_0_0_1_n_n_wf : DotDims.WF S1000x384 S384x48 S1000x48 [1] [0] [0] [1] [] []
  gather_S10000x48_S210000x1_S210000x48_1_0_n_n_0_1_148_wf : GatherDims.WF S10000x48 S210000x1 S210000x48 [1] [0] [] [0] [] 1 ![1, 48]
  scatter_S10000x48_S210000x1_S210000x48_1_0_0_1_wf : ScatterDims.WF S10000x48 S210000x1 S210000x48 [1] [0] [0] 1
  dot_S1000x48_S48x384_S1000x384_1_0_0_1_n_n_wf : DotDims.WF S1000x48 S48x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x384.size a ≤ S10000x384.size a
  hwx0_0 : ∀ i : grid0.Coords, EltTy.bits .f32 = 32 ∨ (Rect.block (s := S10000x384) S1000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x48.size a ≤ S384x48.size a
  hwx0_1 : ∀ i : grid0.Coords, EltTy.bits .f32 = 32 ∨ (Rect.block (s := S384x48) S384x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x48.size a ≤ S10000x48.size a
  hwx0_2 : ∀ i : grid0.Coords, EltTy.bits .f32 = 32 ∨ (Rect.block (s := S10000x48) S1000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x48.size a ≤ S10000x48.size a
  hwx1_0 : ∀ i : grid1.Coords, EltTy.bits .f32 = 32 ∨ (Rect.block (s := S10000x48) S1000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x48.size a ≤ S10000x48.size a
  hwx1_2 : ∀ i : grid1.Coords, EltTy.bits .f32 = 32 ∨ (Rect.block (s := S10000x48) S1000x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x48.size a ≤ S10000x48.size a
  hwx2_0 : ∀ i : grid2.Coords, EltTy.bits .f32 = 32 ∨ (Rect.block (s := S10000x48) S1000x48.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S48x384.size a ≤ S48x384.size a
  hwx2_1 : ∀ i : grid2.Coords, EltTy.bits .f32 = 32 ∨ (Rect.block (s := S48x384) S48x384.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x384.size a ≤ S1x384.size a
  hwx2_2 : ∀ i : grid2.Coords, EltTy.bits .f32 = 32 ∨ (Rect.block (s := S1x384) S1x384.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x384.size a ≤ S10000x384.size a
  hwx2_3 : ∀ i : grid2.Coords, EltTy.bits .f32 = 32 ∨ (Rect.block (s := S10000x384) S1000x384.size (cc2_transform_3 i) (hinb2_3 i)).WholeWords (EltTy.packing .f32)

variable [Facts₀]

def scatter_S10000_S210000x1_S210000_n_0_0_1 : ScatterDims S10000 S210000x1 S210000 where
  updateWindowDims := []
  insertedWindowDims := [0]
  scatterDimsToOperandDims := [0]
  indexVectorDim := 1
  wf := scatter_S10000_S210000x1_S210000_n_0_0_1_wf
def gather_S10000_S210000x1_S210000_n_0_n_n_0_1_1 : GatherDims S10000 S210000x1 S210000 where
  offsetDims := []
  collapsedSliceDims := [0]
  operandBatchingDims := []
  startIndicesBatchingDims := []
  startIndexMap := [0]
  indexVectorDim := 1
  sliceSizes := ![1]
  wf := gather_S10000_S210000x1_S210000_n_0_n_n_0_1_1_wf
def dot_S1000x384_S384x48_S1000x48_1_0_0_1_n_n : DotDims S1000x384 S384x48 S1000x48 where
  lhsContracting := [1]
  rhsContracting := [0]
  lhsNonContracting := [0]
  rhsNonContracting := [1]
  lhsBatch := []
  rhsBatch := []
  wf := dot_S1000x384_S384x48_S1000x48_1_0_0_1_n_n_wf
def gather_S10000x48_S210000x1_S210000x48_1_0_n_n_0_1_148 : GatherDims S10000x48 S210000x1 S210000x48 where
  offsetDims := [1]
  collapsedSliceDims := [0]
  operandBatchingDims := []
  startIndicesBatchingDims := []
  startIndexMap := [0]
  indexVectorDim := 1
  sliceSizes := ![1, 48]
  wf := gather_S10000x48_S210000x1_S210000x48_1_0_n_n_0_1_148_wf
def scatter_S10000x48_S210000x1_S210000x48_1_0_0_1 : ScatterDims S10000x48 S210000x1 S210000x48 where
  updateWindowDims := [1]
  insertedWindowDims := [0]
  scatterDimsToOperandDims := [0]
  indexVectorDim := 1
  wf := scatter_S10000x48_S210000x1_S210000x48_1_0_0_1_wf
def dot_S1000x48_S48x384_S1000x384_1_0_0_1_n_n : DotDims S1000x48 S48x384 S1000x384 where
  lhsContracting := [1]
  rhsContracting := [0]
  lhsNonContracting := [0]
  rhsNonContracting := [1]
  lhsBatch := []
  rhsBatch := []
  wf := dot_S1000x48_S48x384_S1000x384_1_0_0_1_n_n_wf

abbrev win0_0 : Pipeline.Window sig grid0 :=
  Pipeline.Window.ofSpec (Memref.whole main_arg0) S1000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S384x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S1000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S48x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1000x384.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x384 : Shape := ⟨2, ![10000, 384]⟩
abbrev S2x200000 : Shape := ⟨2, ![2, 200000]⟩
abbrev S48x384 : Shape := ⟨2, ![48, 384]⟩
abbrev S48 : Shape := ⟨1, ![48]⟩
abbrev S384x48 : Shape := ⟨2, ![384, 48]⟩
abbrev S384 : Shape := ⟨1, ![384]⟩
abbrev S10000 : Shape := ⟨1, ![10000]⟩
abbrev S1x200000 : Shape := ⟨2, ![1, 200000]⟩
abbrev S200000 : Shape := ⟨1, ![200000]⟩
abbrev S210000 : Shape := ⟨1, ![210000]⟩
abbrev S10000x48 : Shape := ⟨2, ![10000, 48]⟩
abbrev S_ : Shape := ⟨0, ![]⟩
abbrev S210000x1 : Shape := ⟨2, ![210000, 1]⟩
abbrev S210000x48 : Shape := ⟨2, ![210000, 48]⟩
abbrev S1x48 : Shape := ⟨2, ![1, 48]⟩
abbrev S210000x384 : Shape := ⟨2, ![210000, 384]⟩
abbrev S1x384 : Shape := ⟨2, ![1, 384]⟩

abbrev nBuf : Space → Nat
  | .hbm => 124
  | .vmem => 0
  | .smem => 0
  | _ => 0

abbrev bufTy : (tb : Table) → Fin (tcTables nBuf tb) → BufTy
  | .hbm, ⟨0, _⟩ => ⟨S10000x384, .f32⟩
  | .hbm, ⟨1, _⟩ => ⟨S2x200000, .i32⟩
  | .hbm, ⟨2, _⟩ => ⟨S48x384, .f32⟩
  | .hbm, ⟨3, _⟩ => ⟨S48, .f32⟩
  | .hbm, ⟨4, _⟩ => ⟨S384x48, .f32⟩
  | .hbm, ⟨5, _⟩ => ⟨S384, .f32⟩
  | .hbm, ⟨6, _⟩ => ⟨S10000, .i32⟩
  | .hbm, ⟨7, _⟩ => ⟨S1x200000, .i32⟩
  | .hbm, ⟨8, _⟩ => ⟨S200000, .i32⟩
  | .hbm, ⟨9, _⟩ => ⟨S210000, .i32⟩
  | .hbm, ⟨10, _⟩ => ⟨S1x200000, .i32⟩
  | .hbm, ⟨11, _⟩ => ⟨S200000, .i32⟩
  | .hbm, ⟨12, _⟩ => ⟨S210000, .i32⟩
  | .hbm, ⟨13, _⟩ => ⟨S384x48, .f32⟩
  | .hbm, ⟨14, _⟩ => ⟨S10000x48, .f32⟩
  | .hbm, ⟨15, _⟩ => ⟨S_, .f32⟩
  | .hbm, ⟨16, _⟩ => ⟨S210000, .f32⟩
  | .hbm, ⟨17, _⟩ => ⟨S_, .f32⟩
  | .hbm, ⟨18, _⟩ => ⟨S10000, .f32⟩
  | .hbm, ⟨19, _⟩ => ⟨S210000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S210000, .i32⟩
  | .hbm, ⟨31, _⟩ => ⟨S210000, .i1⟩
  | .hbm, ⟨32, _⟩ => ⟨S_, .i32⟩
  | .hbm, ⟨33, _⟩ => ⟨S210000, .i32⟩
  | .hbm, ⟨34, _⟩ => ⟨S210000, .i32⟩
  | .hbm, ⟨35, _⟩ => ⟨S210000, .i32⟩
  | .hbm, ⟨36, _⟩ => ⟨S210000x1, .i32⟩
  | .hbm, ⟨37, _⟩ => ⟨S210000, .f32⟩
  | .hbm, ⟨38, _⟩ => ⟨S_, .i32⟩
  | .hbm, ⟨39, _⟩ => ⟨S210000, .i32⟩
  | .hbm, ⟨40, _⟩ => ⟨S210000, .i1⟩
  | .hbm, ⟨41, _⟩ => ⟨S_, .i32⟩
  | .hbm, ⟨42, _⟩ => ⟨S210000, .i32⟩
  | .hbm, ⟨43, _⟩ => ⟨S210000, .i32⟩
  | .hbm, ⟨44, _⟩ => ⟨S210000, .i32⟩
  | .hbm, ⟨45, _⟩ => ⟨S210000x1, .i32⟩
  | .hbm, ⟨46, _⟩ => ⟨S210000, .f32⟩
  | .hbm, ⟨47, _⟩ => ⟨S210000, .f32⟩
  | .hbm, ⟨48, _⟩ => ⟨S_, .i32⟩
  | .hbm, ⟨49, _⟩ => ⟨S210000, .i32⟩
  | .hbm, ⟨50, _⟩ => ⟨S210000, .i1⟩
  | .hbm, ⟨51, _⟩ => ⟨S_, .i32⟩
  | .hbm, ⟨52, _⟩ => ⟨S210000, .i32⟩
  | .hbm, ⟨53, _⟩ => ⟨S210000, .i32⟩
  | .hbm, ⟨54, _⟩ => ⟨S210000, .i32⟩
  | .hbm, ⟨55, _⟩ => ⟨S210000x1, .i32⟩
  | .hbm, ⟨56, _⟩ => ⟨S210000x48, .f32⟩
  | .hbm, ⟨57, _⟩ => ⟨S210000x1, .f32⟩
  | .hbm, ⟨58, _⟩ => ⟨S210000x48, .f32⟩
  | .hbm, ⟨59, _⟩ => ⟨S210000x48, .f32⟩
  | .hbm, ⟨60, _⟩ => ⟨S_, .f32⟩
  | .hbm, ⟨61, _⟩ => ⟨S10000x48, .f32⟩
  | .hbm, ⟨62, _⟩ => ⟨S210000x1, .i32⟩
  | .hbm, ⟨63, _⟩ => ⟨S10000x48, .f32⟩
  | .hbm, ⟨64, _⟩ => ⟨S1x48, .f32⟩
  | .hbm, ⟨65, _⟩ => ⟨S10000x48, .f32⟩
  | .hbm, ⟨66, _⟩ => ⟨S10000x48, .f32⟩
  | .hbm, ⟨67, _⟩ => ⟨S_, .f32⟩
  | .hbm, ⟨68, _⟩ => ⟨S10000x48, .f32⟩
  | .hbm, ⟨69, _⟩ => ⟨S10000x48, .f32⟩
  | .hbm, ⟨70, _⟩ => ⟨S48x384, .f32⟩
  | .hbm, ⟨71, _⟩ => ⟨S10000x384, .f32⟩
  | .hbm, ⟨72, _⟩ => ⟨S_, .f32⟩
  | .hbm, ⟨73, _⟩ => ⟨S210000, .f32⟩
  | .hbm, ⟨74, _⟩ => ⟨S_, .f32⟩
  | .hbm, ⟨75, _⟩ => ⟨S10000, .f32⟩
  | .hbm, ⟨76, _⟩ => ⟨S210000x1, .i32⟩
  | .hbm, ⟨77, _⟩ => ⟨S10000, .f32⟩
  | .hbm, ⟨78, _⟩ => ⟨S_, .f32⟩
  | .hbm, ⟨79, _⟩ => ⟨S10000, .f32⟩
  | .hbm, ⟨80, _⟩ => ⟨S10000, .i1⟩
  | .hbm, ⟨81, _⟩ => ⟨S10000, .f32⟩
  | .hbm, ⟨82, _⟩ => ⟨S_, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S_, .i32⟩
  | .hbm, ⟨87, _⟩ => ⟨S210000, .i32⟩
  | .hbm, ⟨88, _⟩ => ⟨S210000, .i1⟩
  | .hbm, ⟨89, _⟩ => ⟨S_, .i32⟩
  | .hbm, ⟨90, _⟩ => ⟨S210000, .i32⟩
  | .hbm, ⟨91, _⟩ => ⟨S210000, .i32⟩
  | .hbm, ⟨92, _⟩ => ⟨S210000, .i32⟩
  | .hbm, ⟨93, _⟩ => ⟨S210000x1, .i32⟩
  | .hbm, ⟨94, _⟩ => ⟨S210000, .f32⟩
  | .hbm, ⟨95, _⟩ => ⟨S_, .i32⟩
  | .hbm, ⟨96, _⟩ => ⟨S210000, .i32⟩
  | .hbm, ⟨97, _⟩ => ⟨S210000, .i1⟩
  | .hbm, ⟨98, _⟩ => ⟨S_, .i32⟩
  | .hbm, ⟨99, _⟩ => ⟨S210000, .i32⟩
  | .hbm, ⟨100, _⟩ => ⟨S210000, .i32⟩
  | .hbm, ⟨101, _⟩ => ⟨S210000, .i32⟩
  | .hbm, ⟨102, _⟩ => ⟨S210000x1, .i32⟩
  | .hbm, ⟨103, _⟩ => ⟨S210000, .f32⟩
  | .hbm, ⟨104, _⟩ => ⟨S210000, .f32⟩
  | .hbm, ⟨105, _⟩ => ⟨S_, .i32⟩
  | .hbm, ⟨106, _⟩ => ⟨S210000, .i32⟩
  | .hbm, ⟨107, _⟩ => ⟨S210000, .i1⟩
  | .hbm, ⟨108, _⟩ => ⟨S_, .i32⟩
  | .hbm, ⟨109, _⟩ => ⟨S210000, .i32⟩
  | .hbm, ⟨110, _⟩ => ⟨S210000, .i32⟩
  | .hbm, ⟨111, _⟩ => ⟨S210000, .i32⟩
  | .hbm, ⟨112, _⟩ => ⟨S210000x1, .i32⟩
  | .hbm, ⟨113, _⟩ => ⟨S210000x384, .f32⟩
  | .hbm, ⟨114, _⟩ => ⟨S210000x1, .f32⟩
  | .hbm, ⟨115, _⟩ => ⟨S210000x384, .f32⟩
  | .hbm, ⟨116, _⟩ => ⟨S210000x384, .f32⟩
  | .hbm, ⟨117, _⟩ => ⟨S_, .f32⟩
  | .hbm, ⟨118, _⟩ => ⟨S10000x384, .f32⟩
  | .hbm, ⟨119, _⟩ => ⟨S210000x1, .i32⟩
  | .hbm, ⟨120, _⟩ => ⟨S10000x384, .f32⟩
  | .hbm, ⟨121, _⟩ => ⟨S1x384, .f32⟩
  | .hbm, ⟨122, _⟩ => ⟨S10000x384, .f32⟩
  | .hbm, ⟨123, _⟩ => ⟨S10000x384, .f32⟩
  | _, _ => ⟨S10000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S10000_S210000_d0 : Shape.Concatenates [S200000, S10000] S210000 0
  slices_S2x200000_S1x200000_1_0 : S2x200000.Slices ![1, 0] S1x200000
  transposes_S48x384_S384x48_1_0 : S48x384.Transposes [1, 0] S384x48
  bcast_S_S210000 : S_.BroadcastsInDim S210000 (![] : Fin 0 → Fin S210000.rank)
  bcast_S_S10000 : S_.BroadcastsInDim S10000 (![] : Fin 0 → Fin S10000.rank)
  bcast_S210000_S210000x1_0 : S210000.BroadcastsInDim S210000x1 (![0] : Fin 1 → Fin S210000x1.rank)
  bcast_S210000x1_S210000x48_0_1 : S210000x1.BroadcastsInDim S210000x48 (![0, 1] : Fin 2 → Fin S210000x48.rank)
  bcast_S_S10000x48 : S_.BroadcastsInDim S10000x48 (![] : Fin 0 → Fin S10000x48.rank)
  bcast_S48_S1x48_1 : S48.BroadcastsInDim S1x48 (![1] : Fin 1 → Fin S1x48.rank)
  bcast_S1x48_S10000x48_0_1 : S1x48.BroadcastsInDim S10000x48 (![0, 1] : Fin 2 → Fin S10000x48.rank)
  transposes_S384x48_S48x384_1_0 : S384x48.Transposes [1, 0] S48x384
  bcast_S210000x1_S210000x384_0_1 : S210000x1.BroadcastsInDim S210000x384 (![0, 1] : Fin 2 → Fin S210000x384.rank)
  bcast_S_S10000x384 : S_.BroadcastsInDim S10000x384 (![] : Fin 0 → Fin S10000x384.rank)
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  dot_S10000x384_S384x48_S10000x48_1_0_0_1_n_n_wf : DotDims.WF S10000x384 S384x48 S10000x48 [1] [0] [0] [1] [] []
  scatter_S10000_S210000x1_S210000_n_0_0_1_wf : ScatterDims.WF S10000 S210000x1 S210000 [] [0] [0] 1
  gather_S10000_S210000x1_S210000_n_0_n_n_0_1_1_wf : GatherDims.WF S10000 S210000x1 S210000 [] [0] [] [0] [] 1 ![1]
  gather_S10000x48_S210000x1_S210000x48_1_0_n_n_0_1_148_wf : GatherDims.WF S10000x48 S210000x1 S210000x48 [1] [0] [] [0] [] 1 ![1, 48]
  scatter_S10000x48_S210000x1_S210000x48_1_0_0_1_wf : ScatterDims.WF S10000x48 S210000x1 S210000x48 [1] [0] [0] 1
  dot_S10000x48_S48x384_S10000x384_1_0_0_1_n_n_wf : DotDims.WF S10000x48 S48x384 S10000x384 [1] [0] [0] [1] [] []
  gather_S10000x384_S210000x1_S210000x384_1_0_n_n_0_1_1384_wf : GatherDims.WF S10000x384 S210000x1 S210000x384 [1] [0] [] [0] [] 1 ![1, 384]
  scatter_S10000x384_S210000x1_S210000x384_1_0_0_1_wf : ScatterDims.WF S10000x384 S210000x1 S210000x384 [1] [0] [0] 1

variable [Facts₀]

def dot_S10000x384_S384x48_S10000x48_1_0_0_1_n_n : DotDims S10000x384 S384x48 S10000x48 where
  lhsContracting := [1]
  rhsContracting := [0]
  lhsNonContracting := [0]
  rhsNonContracting := [1]
  lhsBatch := []
  rhsBatch := []
  wf := dot_S10000x384_S384x48_S10000x48_1_0_0_1_n_n_wf
def scatter_S10000_S210000x1_S210000_n_0_0_1 : ScatterDims S10000 S210000x1 S210000 where
  updateWindowDims := []
  insertedWindowDims := [0]
  scatterDimsToOperandDims := [0]
  indexVectorDim := 1
  wf := scatter_S10000_S210000x1_S210000_n_0_0_1_wf
def gather_S10000_S210000x1_S210000_n_0_n_n_0_1_1 : GatherDims S10000 S210000x1 S210000 where
  offsetDims := []
  collapsedSliceDims := [0]
  operandBatchingDims := []
  startIndicesBatchingDims := []
  startIndexMap := [0]
  indexVectorDim := 1
  sliceSizes := ![1]
  wf := gather_S10000_S210000x1_S210000_n_0_n_n_0_1_1_wf
def gather_S10000x48_S210000x1_S210000x48_1_0_n_n_0_1_148 : GatherDims S10000x48 S210000x1 S210000x48 where
  offsetDims := [1]
  collapsedSliceDims := [0]
  operandBatchingDims := []
  startIndicesBatchingDims := []
  startIndexMap := [0]
  indexVectorDim := 1
  sliceSizes := ![1, 48]
  wf := gather_S10000x48_S210000x1_S210000x48_1_0_n_n_0_1_148_wf
def scatter_S10000x48_S210000x1_S210000x48_1_0_0_1 : ScatterDims S10000x48 S210000x1 S210000x48 where
  updateWindowDims := [1]
  insertedWindowDims := [0]
  scatterDimsToOperandDims := [0]
  indexVectorDim := 1
  wf := scatter_S10000x48_S210000x1_S210000x48_1_0_0_1_wf
def dot_S10000x48_S48x384_S10000x384_1_0_0_1_n_n : DotDims S10000x48 S48x384 S10000x384 where
  lhsContracting := [1]
  rhsContracting := [0]
  lhsNonContracting := [0]
  rhsNonContracting := [1]
  lhsBatch := []
  rhsBatch := []
  wf := dot_S10000x48_S48x384_S10000x384_1_0_0_1_n_n_wf
def gather_S10000x384_S210000x1_S210000x384_1_0_n_n_0_1_1384 : GatherDims S10000x384 S210000x1 S210000x384 where
  offsetDims := [1]
  collapsedSliceDims := [0]
  operandBatchingDims := []
  startIndicesBatchingDims := []
  startIndexMap := [0]
  indexVectorDim := 1
  sliceSizes := ![1, 384]
  wf := gather_S10000x384_S210000x1_S210000x384_1_0_n_n_0_1_1384_wf
def scatter_S10000x384_S210000x1_S210000x384_1_0_0_1 : ScatterDims S10000x384 S210000x1 S210000x384 where
  updateWindowDims := [1]
  insertedWindowDims := [0]
  scatterDimsToOperandDims := [0]
  indexVectorDim := 1
  wf := scatter_S10000x384_S210000x1_S210000x384_1_0_0_1_wf

class Facts : Prop extends Facts₀ where

variable [Facts]
-- ==== Proof.KernelRun.lean ====
/-
  The kernel program's run with its result named.

  @main is eight segments: three stretches of host operations, the first launch, a stretch, the second
  launch, a stretch, the third launch. Every weakly fair execution runs them in order and ends with
  every unscoped buffer at the contents the last boundary names: the arguments as launched, and the
  result buffer at what the third launch's write-backs leave.
-/
import proofs.«157030_j23021024706912_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six arguments as launched. -/
theorem run_value : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunV

end
-- ==== Proof.LibScatterGather.lean ====
/-
  A scatter-add and a gather along the leading axis, read at one element.

  The accumulating scatter with one scatter index per update row (inserted window axis 0, the
  start index read signed and not clamped) adds to operand row `c` exactly the update rows whose
  index word, read as a signed integer, is `c`; the gather with one start index per result row
  (collapsed slice axis 0, the start index read signed and clamped into `[0, N - 1]`) reads the
  operand row at that clamped index. Both for a flat operand `[N]` and for a matrix operand
  `[N, C]` whose second axis is carried along unchanged.
-/
import Idealize.ShloMosaic.PureOps.Ideal
import Idealize.ShloMosaic.PureOps.Ideal.Laws
import Idealize.ShloMosaic.Lib.ValueIdx

noncomputable section

open scoped BigOperators

namespace Cert.ScatterGather

open Idealize.ShloMosaic Idealize.ShloMosaic.ValueIdx

/-- A scatter-add into a flat array `[N]` with one index per update: element `c` of the result is the
    operand's element `c` plus the sum of the updates `e` whose index word, read signed, equals `c`. -/
theorem scatterAdd1_apply {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (upd : (⟨1, ![E]⟩ : Shape).Idx → EReal) (c : Fin N) :
    Ideal.hostScatterAdd d x idx upd (ix1 c)
      = x (ix1 c) + ∑ e ∈ Finset.univ.filter
          (fun e : Fin E => (idx (ix2 e ⟨0, Nat.one_pos⟩)).toInt = (c.val : Int)), upd (ix1 e) := by
  obtain ⟨uw, iw, sd, iv, wf⟩ := d
  dsimp only at huw hiw hsd hiv
  subst huw hiw hsd hiv
  unfold Ideal.hostScatterAdd
  congr 1
  have hsz : ((⟨1, ![N]⟩ : Shape).size 0 : Nat) = N := rfl
  have key : ∀ e : Fin E,
      (ScatterDims.resultIdx? (s := ⟨1, ![N]⟩) (si := ⟨2, ![E, 1]⟩) (u := ⟨1, ![E]⟩) ⟨[], [0], [0], 1, wf⟩
        (ix1 e) idx = some (ix1 c)) ↔ (idx (ix2 e ⟨0, Nat.one_pos⟩)).toInt = (c.val : Int) := by
    intro e
    have hst : ∀ a, ScatterDims.start (s := ⟨1, ![N]⟩) (si := ⟨2, ![E, 1]⟩) (u := ⟨1, ![E]⟩) ⟨[], [0], [0], 1, wf⟩
        (ix1 e) idx a = (idx (ix2 e ⟨0, Nat.one_pos⟩)).toInt := by
      intro a
      obtain rfl : a = 0 := Subsingleton.elim _ _
      unfold ScatterDims.start
      rw [dif_pos (List.mem_singleton.mpr rfl)]
      have hsi : ∀ p, ScatterDims.siIdx (s := ⟨1, ![N]⟩) (si := ⟨2, ![E, 1]⟩) (u := ⟨1, ![E]⟩) ⟨[], [0], [0], 1, wf⟩
          (ix1 e) ⟨List.idxOf (0 : Fin 1) [0], p⟩ = ix2 e ⟨0, Nat.one_pos⟩ := by
        intro p; funext b; refine Fin.ext ?_
        match b with
        | ⟨0, _⟩ => rfl
        | ⟨1, _⟩ => rfl
      rw [hsi]
    have hwin : ∀ a, ScatterDims.window (s := ⟨1, ![N]⟩) (si := ⟨2, ![E, 1]⟩) (u := ⟨1, ![E]⟩) ⟨[], [0], [0], 1, wf⟩
        (ix1 e) a = 0 := by
      intro a
      obtain rfl : a = 0 := Subsingleton.elim _ _
      unfold ScatterDims.window
      rw [dif_neg (by simp [Shape.kept])]
    have hc := c.isLt
    constructor
    · intro h
      unfold ScatterDims.resultIdx? at h
      split at h
      · rename_i hall
        have h0 := hall 0
        have hc0 : (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val :=
          congrArg Fin.val (congrFun (Option.some.inj h) 0)
        rw [hst, hwin] at h0 hc0
        rw [hsz] at h0
        omega
      · cases h
    · intro hv
      have hall : ∀ a, 0 ≤ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
          ∧ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
            < (((⟨1, ![N]⟩ : Shape).size a : Nat) : Int) := by
        intro a
        rw [hst, hwin]
        obtain rfl : a = 0 := Subsingleton.elim _ _
        rw [hsz]
        omega
      unfold ScatterDims.resultIdx?
      rw [dif_pos hall]
      congr 1
      funext a
      obtain rfl : a = 0 := Subsingleton.elim _ _
      refine Fin.ext ?_
      show (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val
      rw [hst, hwin]
      omega
  refine Finset.sum_nbij' (fun j => (j 0 : Fin E)) (fun e => ix1 e) ?_ ?_ ?_ ?_ ?_
  · intro j hj
    have h2 := (Finset.mem_filter.1 hj).2
    rw [eq_ix1 j] at h2
    exact Finset.mem_filter.2 ⟨Finset.mem_univ _, (key _).1 h2⟩
  · intro e he
    exact Finset.mem_filter.2 ⟨Finset.mem_univ _, (key e).2 (Finset.mem_filter.1 he).2⟩
  · intro j _
    exact (eq_ix1 j).symm
  · intro e _
    rfl
  · intro j _
    exact congrArg upd (eq_ix1 j)

/-- A scatter-add of rows into a matrix `[N, C]` with one row index per update row: element `(c, k)` of the
    result is the operand's element `(c, k)` plus the sum over the update rows `e` whose index word, read
    signed, equals `c` of their element `k`. -/
theorem scatterAdd2_apply {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (c : Fin N) (k : Fin C) :
    Ideal.hostScatterAdd d x idx upd (ix2 c k)
      = x (ix2 c k) + ∑ e ∈ Finset.univ.filter
          (fun e : Fin E => (idx (ix2 e ⟨0, Nat.one_pos⟩)).toInt = (c.val : Int)), upd (ix2 e k) := by
  obtain ⟨uw, iw, sd, iv, wf⟩ := d
  dsimp only at huw hiw hsd hiv
  subst huw hiw hsd hiv
  unfold Ideal.hostScatterAdd
  congr 1
  have hsz0 : ((⟨2, ![N, C]⟩ : Shape).size 0 : Nat) = N := rfl
  have hsz1 : ((⟨2, ![N, C]⟩ : Shape).size 1 : Nat) = C := rfl
  have key : ∀ (e : Fin E) (k' : Fin C),
      (ScatterDims.resultIdx? (⟨[1], [0], [0], 1, wf⟩ : ScatterDims ⟨2, ![N, C]⟩ ⟨2, ![E, 1]⟩ ⟨2, ![E, C]⟩) (ix2 e k') idx = some (ix2 c k))
        ↔ ((idx (ix2 e ⟨0, Nat.one_pos⟩)).toInt = (c.val : Int) ∧ k' = k) := by
    intro e k'
    have hst0 : ScatterDims.start (⟨[1], [0], [0], 1, wf⟩ : ScatterDims ⟨2, ![N, C]⟩ ⟨2, ![E, 1]⟩ ⟨2, ![E, C]⟩) (ix2 e k') idx 0 = (idx (ix2 e ⟨0, Nat.one_pos⟩)).toInt := by
      unfold ScatterDims.start
      rw [dif_pos (List.mem_singleton.mpr rfl)]
      have hsi : ∀ p, ScatterDims.siIdx (⟨[1], [0], [0], 1, wf⟩ : ScatterDims ⟨2, ![N, C]⟩ ⟨2, ![E, 1]⟩ ⟨2, ![E, C]⟩) (ix2 e k') ⟨List.idxOf (0 : Fin 2) [0], p⟩ = ix2 e ⟨0, Nat.one_pos⟩ := by
        intro p; funext b; refine Fin.ext ?_
        match b with
        | ⟨0, _⟩ => rfl
        | ⟨1, _⟩ => rfl
      rw [hsi]
    have hst1 : ScatterDims.start (⟨[1], [0], [0], 1, wf⟩ : ScatterDims ⟨2, ![N, C]⟩ ⟨2, ![E, 1]⟩ ⟨2, ![E, C]⟩) (ix2 e k') idx 1 = 0 := by
      unfold ScatterDims.start
      rw [dif_neg (fun h => absurd (congrArg Fin.val (List.mem_singleton.mp h)) Nat.one_ne_zero)]
    have hwin0 : ScatterDims.window (⟨[1], [0], [0], 1, wf⟩ : ScatterDims ⟨2, ![N, C]⟩ ⟨2, ![E, 1]⟩ ⟨2, ![E, C]⟩) (ix2 e k') 0 = 0 := by
      unfold ScatterDims.window
      rw [dif_neg (by simp [Shape.kept])]
    have hwin1 : ScatterDims.window (⟨[1], [0], [0], 1, wf⟩ : ScatterDims ⟨2, ![N, C]⟩ ⟨2, ![E, 1]⟩ ⟨2, ![E, C]⟩) (ix2 e k') 1 = k'.val := by
      unfold ScatterDims.window
      rw [dif_pos (by simp [Shape.kept])]
      rfl
    have hc := c.isLt
    have hk := k.isLt
    have hk' := k'.isLt
    constructor
    · intro h
      unfold ScatterDims.resultIdx? at h
      split at h
      · rename_i hall
        have h0 := hall 0
        have hc0 : (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val :=
          congrArg Fin.val (congrFun (Option.some.inj h) 0)
        have hc1 : (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k.val :=
          congrArg Fin.val (congrFun (Option.some.inj h) 1)
        rw [hst0, hwin0] at h0 hc0
        rw [hsz0] at h0
        rw [hst1, hwin1] at hc1
        exact ⟨by omega, Fin.ext (by omega)⟩
      · cases h
    · rintro ⟨hv, rfl⟩
      have hall : ∀ a, 0 ≤ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
          ∧ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
            < (((⟨2, ![N, C]⟩ : Shape).size a : Nat) : Int) := by
        intro a
        match a with
        | ⟨0, _⟩ =>
          show 0 ≤ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
            ∧ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
              < (((⟨2, ![N, C]⟩ : Shape).size 0 : Nat) : Int)
          rw [hst0, hwin0, hsz0]
          omega
        | ⟨1, _⟩ =>
          show 0 ≤ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
            ∧ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
              < (((⟨2, ![N, C]⟩ : Shape).size 1 : Nat) : Int)
          rw [hst1, hwin1, hsz1]
          omega
      unfold ScatterDims.resultIdx?
      rw [dif_pos hall]
      congr 1
      funext a
      refine Fin.ext ?_
      match a with
      | ⟨0, _⟩ =>
        show (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val
        rw [hst0, hwin0]
        omega
      | ⟨1, _⟩ =>
        show (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k'.val
        rw [hst1, hwin1]
        omega
  have hmem : ∀ j : (⟨2, ![E, C]⟩ : Shape).Idx,
      ScatterDims.resultIdx? (⟨[1], [0], [0], 1, wf⟩ : ScatterDims ⟨2, ![N, C]⟩ ⟨2, ![E, 1]⟩ ⟨2, ![E, C]⟩) j idx = some (ix2 c k)
        → (idx (ix2 (j 0 : Fin E) ⟨0, Nat.one_pos⟩)).toInt = (c.val : Int) ∧ ix2 (j 0 : Fin E) k = j := by
    intro j hj
    rw [eq_ix2 j] at hj
    have h2 := (key _ _).1 hj
    refine ⟨h2.1, ?_⟩
    have h3 : ix2 (j 0 : Fin E) k = ix2 (j 0 : Fin E) (j 1 : Fin C) :=
      congrArg (fun t : Fin C => ix2 (j 0 : Fin E) t) h2.2.symm
    exact h3.trans (eq_ix2 j).symm
  refine Finset.sum_nbij' (fun j => (j 0 : Fin E)) (fun e => ix2 e k) ?_ ?_ ?_ ?_ ?_
  · intro j hj
    exact Finset.mem_filter.2 ⟨Finset.mem_univ _, (hmem j (Finset.mem_filter.1 hj).2).1⟩
  · intro e he
    exact Finset.mem_filter.2 ⟨Finset.mem_univ _, (key e k).2 ⟨(Finset.mem_filter.1 he).2, rfl⟩⟩
  · intro j hj
    exact (hmem j (Finset.mem_filter.1 hj).2).2
  · intro e _
    rfl
  · intro j hj
    exact congrArg upd (hmem j (Finset.mem_filter.1 hj).2).2.symm

/-- A gather from a flat array `[N]` with one start index per result element: result element `e` is the
    operand at the index word of `e`, read signed and clamped into `[0, N - 1]`. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e)
      = x (ix1 ⟨min (idx (ix2 e ⟨0, Nat.one_pos⟩)).toInt.toNat (N - 1), by omega⟩) := by
  obtain ⟨od, cd, ob, sb, sm, iv, ss, wf⟩ := d
  dsimp only at hod hcd hob hsb hsm hiv hss
  subst hod hcd hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ p, GatherDims.siIdx (s := ⟨1, ![N]⟩) (si := ⟨2, ![E, 1]⟩) (t := ⟨1, ![E]⟩)
      ⟨[], [0], [], [], [0], 1, ![1], wf⟩ (ix1 e) ⟨List.idxOf (0 : Fin 1) [0], p⟩ = ix2 e ⟨0, Nat.one_pos⟩ := by
    intro p
    funext b; refine Fin.ext ?_
    match b with
    | ⟨0, _⟩ => rfl
    | ⟨1, _⟩ => rfl
  rw [hsi]
  rfl

/-- A gather of rows from a matrix `[N, C]` with one start index per result row: result element `(e, k)` is
    the operand's element `k` of the row at the index word of `e`, read signed and clamped into `[0, N - 1]`. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (k : Fin C) :
    Host.gather d x idx (ix2 e k)
      = x (ix2 ⟨min (idx (ix2 e ⟨0, Nat.one_pos⟩)).toInt.toNat (N - 1), by omega⟩ k) := by
  obtain ⟨od, cd, ob, sb, sm, iv, ss, wf⟩ := d
  dsimp only at hod hcd hob hsb hsm hiv hss
  subst hod hcd hob hsb hsm hiv hss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ p, GatherDims.siIdx (s := ⟨2, ![N, C]⟩) (si := ⟨2, ![E, 1]⟩) (t := ⟨2, ![E, C]⟩)
        ⟨[1], [0], [], [], [0], 1, ![1, C], wf⟩ (ix2 e k) ⟨List.idxOf (0 : Fin 2) [0], p⟩ = ix2 e ⟨0, Nat.one_pos⟩ := by
      intro p
      funext b; refine Fin.ext ?_
      match b with
      | ⟨0, _⟩ => rfl
      | ⟨1, _⟩ => rfl
    rw [hsi]
    rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Cert.ScatterGather

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.Aggregate.lean ====
/-
  The weighted aggregation of rows over the edges of a graph, as a host program spells it, read at one entry.

  The rows of `h` are gathered at the edges' source words (`g`), each gathered row is scaled by its edge's
  weight (the weights `[E]` made a column `[E, 1]` and spread over the `C` lanes), and the scaled rows are
  scatter-added into zeros at the edges' target words (`d`). Entry `(i, k)` of the result is the sum, over
  the edges whose target word read signed is `i`, of entry `k` of the row at the source word (read signed and
  clamped into the node range) times the edge's weight. The same for the degree count: ones scatter-added
  into zeros.
-/
import proofs.«157030_j23021024706912_2_alg».proof.Proof.LibScatterGather
import proofs.«157030_j23021024706912_2_alg».proof.Proof.LibHostBroadcast

noncomputable section

open scoped BigOperators

namespace Cert.Aggregate

open Idealize.ShloMosaic Idealize.ShloMosaic.ValueIdx

/-- A scalar broadcast to any shape reads the scalar everywhere. -/
theorem splat_apply {α : Type} {t : Shape} (hb : (⟨0, ![]⟩ : Shape).BroadcastsInDim t (![] : Fin 0 → Fin t.rank))
    (x : (⟨0, ![]⟩ : Shape).Idx → α) (j : t.Idx) :
    broadcastInDim t (![] : Fin 0 → Fin t.rank) hb x j = x ix0 :=
  broadcastInDim_apply _ hb x j ix0 fun a => a.elim0

/-- The aggregation read at entry `(i, k)`. -/
theorem aggregate_apply {N E C : ℕ} (hN : 0 < N)
    (sd : ScatterDims ⟨2, ![N, C]⟩ ⟨2, ![E, 1]⟩ ⟨2, ![E, C]⟩)
    (huw : sd.updateWindowDims = [1]) (hiw : sd.insertedWindowDims = [0])
    (hso : sd.scatterDimsToOperandDims = [0]) (hiv : sd.indexVectorDim = 1)
    (gd : GatherDims ⟨2, ![N, C]⟩ ⟨2, ![E, 1]⟩ ⟨2, ![E, C]⟩)
    (hod : gd.offsetDims = [1]) (hcd : gd.collapsedSliceDims = [0]) (hob : gd.operandBatchingDims = [])
    (hsb : gd.startIndicesBatchingDims = []) (hsm : gd.startIndexMap = [0]) (hgv : gd.indexVectorDim = 1)
    (hss : gd.sliceSizes = ![1, C])
    (hb0 : (⟨0, ![]⟩ : Shape).BroadcastsInDim ⟨2, ![N, C]⟩ (![] : Fin 0 → Fin 2))
    (hb1 : (⟨1, ![E]⟩ : Shape).BroadcastsInDim ⟨2, ![E, 1]⟩ (![0] : Fin 1 → Fin 2))
    (hb2 : (⟨2, ![E, 1]⟩ : Shape).BroadcastsInDim ⟨2, ![E, C]⟩ (![0, 1] : Fin 2 → Fin 2))
    (h : FVec Ideal ⟨2, ![N, C]⟩ .f32) (g d : IVec ⟨2, ![E, 1]⟩ 32) (nrm : FVec Ideal ⟨1, ![E]⟩ .f32)
    (i : Fin N) (k : Fin C) :
    Host.scatterAdd sd
        (broadcastInDim ⟨2, ![N, C]⟩ (![] : Fin 0 → Fin 2) hb0 (constant (F := Ideal) ⟨0, ![]⟩ .f32 0x00000000#32))
        d
        (mulf (Host.gather gd h g)
          (broadcastInDim ⟨2, ![E, C]⟩ (![0, 1] : Fin 2 → Fin 2) hb2
            (broadcastInDim ⟨2, ![E, 1]⟩ (![0] : Fin 1 → Fin 2) hb1 nrm)))
        (ix2 i k)
      = ∑ e ∈ Finset.univ.filter (fun e : Fin E => (d (ix2 e ⟨0, Nat.one_pos⟩)).toInt = (i.val : Int)),
          h (ix2 ⟨min (g (ix2 e ⟨0, Nat.one_pos⟩)).toInt.toNat (N - 1), by omega⟩ k) * nrm (ix1 e) := by
  show Ideal.hostScatterAdd sd _ d _ (ix2 i k) = _
  rw [Cert.ScatterGather.scatterAdd2_apply sd huw hiw hso hiv, splat_apply hb0]
  show Ideal.ofBits .f32 0x00000000#32 + _ = _
  rw [Ideal.ofBits_zero_f32, zero_add]
  refine Finset.sum_congr rfl fun e _ => ?_
  show Host.gather gd h g (ix2 e k)
      * broadcastInDim ⟨2, ![E, C]⟩ (![0, 1] : Fin 2 → Fin 2) hb2
          (broadcastInDim ⟨2, ![E, 1]⟩ (![0] : Fin 1 → Fin 2) hb1 nrm) (ix2 e k) = _
  rw [Cert.ScatterGather.gather2_apply hN gd hod hcd hob hsb hsm hgv hss,
    Cert.LibHostBroadcast.col_to_mat_apply, Cert.LibHostBroadcast.vec_to_col_apply]

/-- The count of the edges into a node, as a host program spells it: ones scatter-added into zeros. Entry `i` is
    the sum of the update's entries over the edges whose target word read signed is `i`. -/
theorem count_apply {N E : ℕ}
    (sd : ScatterDims ⟨1, ![N]⟩ ⟨2, ![E, 1]⟩ ⟨1, ![E]⟩)
    (huw : sd.updateWindowDims = []) (hiw : sd.insertedWindowDims = [0])
    (hso : sd.scatterDimsToOperandDims = [0]) (hiv : sd.indexVectorDim = 1)
    (hb0 : (⟨0, ![]⟩ : Shape).BroadcastsInDim ⟨1, ![N]⟩ (![] : Fin 0 → Fin 1))
    (hbE : (⟨0, ![]⟩ : Shape).BroadcastsInDim ⟨1, ![E]⟩ (![] : Fin 0 → Fin 1))
    (d : IVec ⟨2, ![E, 1]⟩ 32) (one : BitVec 32) (i : Fin N) :
    Host.scatterAdd sd
        (broadcastInDim ⟨1, ![N]⟩ (![] : Fin 0 → Fin 1) hb0 (constant (F := Ideal) ⟨0, ![]⟩ .f32 0x00000000#32))
        d
        (broadcastInDim ⟨1, ![E]⟩ (![] : Fin 0 → Fin 1) hbE (constant (F := Ideal) ⟨0, ![]⟩ .f32 one))
        (ix1 i)
      = ∑ _e ∈ Finset.univ.filter (fun e : Fin E => (d (ix2 e ⟨0, Nat.one_pos⟩)).toInt = (i.val : Int)),
          Ideal.ofBits .f32 one := by
  show Ideal.hostScatterAdd sd _ d _ (ix1 i) = _
  rw [Cert.ScatterGather.scatterAdd1_apply sd huw hiw hso hiv, splat_apply hb0]
  show Ideal.ofBits .f32 0x00000000#32 + _ = _
  rw [Ideal.ofBits_zero_f32, zero_add]
  refine Finset.sum_congr rfl fun e _ => ?_
  exact splat_apply hbE _ (ix1 e)

end Cert.Aggregate

end
-- ==== Proof.Reals.lean ====
/-
  Extended reals that are real numbers.

  Every float input of the two programs is finite, so every value they compute from them by sums,
  products and maxima is a real number. On the reals a finite sum may be exchanged with a product;
  on the extended reals it may not (an infinity times zero), which is why the values are shown
  real first and the exchange is made on the reals.
-/
import Idealize.ShloMosaic.PureOps.Ideal
import Idealize.ShloMosaic.PureOps.Ideal.Laws

noncomputable section

open scoped BigOperators

namespace Cert.Reals

open Idealize.ShloMosaic

/-- An extended real that is the image of a real number. -/
def IsReal (a : EReal) : Prop := ∃ r : ℝ, a = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.max {a b : EReal} (ha : IsReal a) (hb : IsReal b) : IsReal (max a b) := by
  rcases le_total a b with h | h
  · rw [max_eq_right h]; exact hb
  · rw [max_eq_left h]; exact ha

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a t ha ih =>
    rw [Finset.sum_insert ha]
    exact (h a (Finset.mem_insert_self _ _)).add (ih fun i hi => h i (Finset.mem_insert_of_mem hi))

/-- The image of a finite sum of reals is the sum of the images. -/
theorem coe_sum {ι : Type} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A sum of ones over a finite set is its number of elements. -/
theorem sum_ones {ι : Type} (s : Finset ι) : (∑ _e ∈ s, (1 : EReal)) = ((s.card : ℝ) : EReal) := by
  rw [← EReal.coe_one, ← coe_sum]
  simp

/-- PROJECTING AFTER AGGREGATING IS AGGREGATING THE PROJECTIONS. For real rows `R`, real edge weights
    `nrm` and real coefficients `w`, over any finite set `S` of edges with sources `sg`:
    the rows aggregated over the edges and then combined with `w` equal the rows combined with `w`
    and then aggregated. The offset `b` is any extended real. -/
theorem project_after_aggregate {E N K : Type} [Fintype K] (S : Finset E) (sg : E → N)
    (R : N → K → EReal) (nrm : E → EReal) (w : K → EReal) (b : EReal)
    (hR : ∀ n k, IsReal (R n k)) (hn : ∀ e, IsReal (nrm e)) (hw : ∀ k, IsReal (w k)) :
    (∑ k, (∑ e ∈ S, R (sg e) k * nrm e) * w k) + b
      = (∑ e ∈ S, (∑ k, R (sg e) k * w k) * nrm e) + b := by
  choose R' hR' using hR
  choose n' hn' using hn
  choose w' hw' using hw
  have hreal : (∑ k, (∑ e ∈ S, R' (sg e) k * n' e) * w' k)
      = ∑ e ∈ S, (∑ k, R' (sg e) k * w' k) * n' e := by
    simp only [Finset.sum_mul]
    rw [Finset.sum_comm]
    exact Finset.sum_congr rfl fun e _ => Finset.sum_congr rfl fun k _ => by ring
  simp only [hR', hn', hw', ← EReal.coe_mul, ← coe_sum]
  rw [hreal]

end Cert.Reals

end
-- ==== Proof.GcnSpec.lean ====
/-
  The two-layer graph convolution, entry by entry.

  The graph is given by three things both programs compute in the same way from the edge list: for
  every edge the word its source row is gathered at (`g`), the word its target is scattered to (`d`),
  and its weight `nrm` (the product of the two endpoints' normalisers). A gather reads the row at the
  word read signed and clamped into the node range; a scatter-add adds an edge to node `i` when its word,
  read signed, is `i`.

  Layer 1 projects the features by `w1`, aggregates over the edges, adds `b1` and clamps at zero.
  Layer 2, in the kernel, aggregates the hidden rows first and projects by `w2` afterwards; in the
  reference it projects first and aggregates the projected rows. Both then add `b2`. The two are equal
  because every hidden entry, every weight and every coefficient is a real number.
-/
import proofs.«157030_j23021024706912_2_alg».proof.Proof.Reals
import Idealize.ShloMosaic.Lib.ValueIdx

noncomputable section

open scoped BigOperators

namespace Cert.Gcn

open Idealize.ShloMosaic Idealize.ShloMosaic.ValueIdx Cert.Reals

/-- The node row an edge's gather reads: its index word, read signed, clamped into `[0, 9999]`. -/
def row (g : IVec ⟨2, ![210000, 1]⟩ 32) (e : Fin 210000) : Fin 10000 :=
  ⟨min (g (ix2 e ⟨0, Nat.one_pos⟩)).toInt.toNat (10000 - 1), by omega⟩

/-- The edges a scatter-add adds to node `i`: those whose index word, read signed, is `i`. -/
def into (d : IVec ⟨2, ![210000, 1]⟩ 32) (i : Fin 10000) : Finset (Fin 210000) :=
  Finset.univ.filter fun e : Fin 210000 => (d (ix2 e ⟨0, Nat.one_pos⟩)).toInt = (i.val : Int)

/-- Layer 1's projection: row `n` of the features against row `k` of `w1`. -/
def lin1 (x : (⟨2, ![10000, 384]⟩ : Shape).Idx → EReal) (w1 : (⟨2, ![48, 384]⟩ : Shape).Idx → EReal)
    (n : Fin 10000) (k : Fin 48) : EReal :=
  ∑ c : Fin 384, x (ix2 n c) * w1 (ix2 k c)

/-- The weighted aggregation of 48-wide rows `h` over the edges into node `i`. -/
def aggr (g d : IVec ⟨2, ![210000, 1]⟩ 32) (nrm : (⟨1, ![210000]⟩ : Shape).Idx → EReal)
    (h : Fin 10000 → Fin 48 → EReal) (i : Fin 10000) (k : Fin 48) : EReal :=
  ∑ e ∈ into d i, h (row g e) k * nrm (ix1 e)

/-- The hidden layer: layer 1 aggregated, offset by `b1`, clamped at zero. -/
def hid (g d : IVec ⟨2, ![210000, 1]⟩ 32) (nrm : (⟨1, ![210000]⟩ : Shape).Idx → EReal)
    (x : (⟨2, ![10000, 384]⟩ : Shape).Idx → EReal) (w1 : (⟨2, ![48, 384]⟩ : Shape).Idx → EReal)
    (b1 : (⟨1, ![48]⟩ : Shape).Idx → EReal) (n : Fin 10000) (k : Fin 48) : EReal :=
  max (aggr g d nrm (lin1 x w1) n k + b1 (ix1 k)) 0

/-- The kernel's result: the hidden rows aggregated, then projected by `w2`, plus `b2`. -/
def kernelOut (g d : IVec ⟨2, ![210000, 1]⟩ 32) (nrm : (⟨1, ![210000]⟩ : Shape).Idx → EReal)
    (x : (⟨2, ![10000, 384]⟩ : Shape).Idx → EReal) (w1 : (⟨2, ![48, 384]⟩ : Shape).Idx → EReal)
    (b1 : (⟨1, ![48]⟩ : Shape).Idx → EReal) (w2 : (⟨2, ![384, 48]⟩ : Shape).Idx → EReal)
    (b2 : (⟨1, ![384]⟩ : Shape).Idx → EReal) (i : Fin 10000) (j : Fin 384) : EReal :=
  (∑ k : Fin 48, aggr g d nrm (hid g d nrm x w1 b1) i k * w2 (ix2 j k)) + b2 (ix1 j)

/-- The reference's result: the hidden rows projected by `w2`, then aggregated, plus `b2`. -/
def refOut (g d : IVec ⟨2, ![210000, 1]⟩ 32) (nrm : (⟨1, ![210000]⟩ : Shape).Idx → EReal)
    (x : (⟨2, ![10000, 384]⟩ : Shape).Idx → EReal) (w1 : (⟨2, ![48, 384]⟩ : Shape).Idx → EReal)
    (b1 : (⟨1, ![48]⟩ : Shape).Idx → EReal) (w2 : (⟨2, ![384, 48]⟩ : Shape).Idx → EReal)
    (b2 : (⟨1, ![384]⟩ : Shape).Idx → EReal) (i : Fin 10000) (j : Fin 384) : EReal :=
  (∑ e ∈ into d i, (∑ k : Fin 48, hid g d nrm x w1 b1 (row g e) k * w2 (ix2 j k)) * nrm (ix1 e)) + b2 (ix1 j)

section

variable (g d : IVec ⟨2, ![210000, 1]⟩ 32) (nrm : (⟨1, ![210000]⟩ : Shape).Idx → EReal)
  (x : (⟨2, ![10000, 384]⟩ : Shape).Idx → EReal) (w1 : (⟨2, ![48, 384]⟩ : Shape).Idx → EReal)
  (b1 : (⟨1, ![48]⟩ : Shape).Idx → EReal) (w2 : (⟨2, ![384, 48]⟩ : Shape).Idx → EReal)
  (b2 : (⟨1, ![384]⟩ : Shape).Idx → EReal)

/-- Layer 1's projection of real features by real weights is real. -/
theorem isReal_lin1 (hx : ∀ i, IsReal (x i)) (hw1 : ∀ i, IsReal (w1 i)) (n : Fin 10000) (k : Fin 48) :
    IsReal (lin1 x w1 n k) :=
  isReal_sum _ _ fun c _ => (hx _).mul (hw1 _)

/-- An aggregation of real rows with real edge weights is real. -/
theorem isReal_aggr (hn : ∀ e, IsReal (nrm e)) (h : Fin 10000 → Fin 48 → EReal) (hh : ∀ n k, IsReal (h n k))
    (i : Fin 10000) (k : Fin 48) : IsReal (aggr g d nrm h i k) :=
  isReal_sum _ _ fun e _ => (hh _ _).mul (hn _)

/-- Every hidden entry is real. -/
theorem isReal_hid (hn : ∀ e, IsReal (nrm e)) (hx : ∀ i, IsReal (x i)) (hw1 : ∀ i, IsReal (w1 i))
    (hb1 : ∀ i, IsReal (b1 i)) (n : Fin 10000) (k : Fin 48) : IsReal (hid g d nrm x w1 b1 n k) :=
  ((isReal_aggr g d nrm hn _ (isReal_lin1 x w1 hx hw1) n k).add (hb1 _)).max isReal_zero

/-- THE TWO RESULTS AGREE on finite inputs and real edge weights: aggregation over the edges into a node
    and projection by `w2` are finite sums of real numbers, and they commute. -/
theorem kernelOut_eq_refOut (hn : ∀ e, IsReal (nrm e)) (hx : ∀ i, IsReal (x i)) (hw1 : ∀ i, IsReal (w1 i))
    (hb1 : ∀ i, IsReal (b1 i)) (hw2 : ∀ i, IsReal (w2 i)) (i : Fin 10000) (j : Fin 384) :
    kernelOut g d nrm x w1 b1 w2 b2 i j = refOut g d nrm x w1 b1 w2 b2 i j := by
  unfold kernelOut refOut aggr
  exact project_after_aggregate (into d i) (row g) (hid g d nrm x w1 b1) (fun e => nrm (ix1 e))
    (fun k => w2 (ix2 j k)) (b2 (ix1 j)) (isReal_hid g d nrm x w1 b1 hn hx hw1 hb1) (fun e => hn _) (fun k => hw2 _)

end

end Cert.Gcn

end
-- ==== Proof.Graph.lean ====
/-
  The graph quantities as the kernel program's host operations spell them, as functions of the edge list.

  `srcT` / `dstT`: the edges' sources and targets with one self-loop per node appended. `wrapT`: an index
  vector with the negative words moved up by the node count, as a column — what a gather is given. `colT`:
  an index vector as a column — what a scatter-add is given. `degT`: the number of edges into each node.
  `dinvT`: its reciprocal square root where it is positive, zero elsewhere. `normT`: per edge, the product
  of the two endpoints' `dinvT`. `aggT h`: the rows of `h` gathered at the sources, scaled by `normT`,
  scatter-added at the targets.
-/
import proofs.«157030_j23021024706912_2_alg».proof.Proof.Gen.KernelIdeal
import proofs.«157030_j23021024706912_2_alg».proof.Proof.Aggregate
import proofs.«157030_j23021024706912_2_alg».proof.Proof.GcnSpec

noncomputable section

open scoped BigOperators

namespace Cert.KernelIdeal.Graph

open Cert.KernelIdeal Cert.KernelIdeal.Facts₀ Idealize.ShloMosaic Idealize.ShloMosaic.ValueIdx

variable {F : FTy → Type} [FloatOps F]

def srcT (a1 : IVec S2x200000 32) : IVec S210000 32 :=
  concatenate S210000 0 [⟨S200000, shapeCast S200000 (extractStridedSlice S1x200000 ![0, 0] a1 slices_S2x200000_S1x200000_0_0) shapeCasts_S1x200000_S200000⟩, ⟨S10000, iotaInDim S10000 32 0⟩] concatenates_S200000_S10000_S210000_d0

def dstT (a1 : IVec S2x200000 32) : IVec S210000 32 :=
  concatenate S210000 0 [⟨S200000, shapeCast S200000 (extractStridedSlice S1x200000 ![1, 0] a1 slices_S2x200000_S1x200000_1_0) shapeCasts_S1x200000_S200000⟩, ⟨S10000, iotaInDim S10000 32 0⟩] concatenates_S200000_S10000_S210000_d0

def wrapT (v : IVec S210000 32) : IVec S210000x1 32 :=
  broadcastInDim S210000x1 ![0] bcast_S210000_S210000x1_0
    (select (cmpi .slt v (broadcastInDim S210000 ![] bcast_S_S210000 (constantI S_ 32 0#32)))
      (addi v (broadcastInDim S210000 ![] bcast_S_S210000 (constantI S_ 32 10000#32))) v)

def colT (v : IVec S210000 32) : IVec S210000x1 32 :=
  broadcastInDim S210000x1 ![0] bcast_S210000_S210000x1_0 v

def degT (a1 : IVec S2x200000 32) : FVec F S10000 .f32 :=
  Host.scatterAdd scatter_S10000_S210000x1_S210000_n_0_0_1
    (broadcastInDim S10000 ![] bcast_S_S10000 (constant S_ .f32 0x00000000#32))
    (colT (dstT a1))
    (broadcastInDim S210000 ![] bcast_S_S210000 (constant S_ .f32 0x3F800000#32))

def dinvT (a1 : IVec S2x200000 32) : FVec F S10000 .f32 :=
  select (cmpf .ogt (degT (F := F) a1) (broadcastInDim S10000 ![] bcast_S_S10000 (constant S_ .f32 0x00000000#32)))
    (Host.rsqrt (degT (F := F) a1))
    (broadcastInDim S10000 ![] bcast_S_S10000 (id (constant S_ .f32 0x00000000#32)))

def normT (a1 : IVec S2x200000 32) : FVec F S210000 .f32 :=
  mulf (Host.gather gather_S10000_S210000x1_S210000_n_0_n_n_0_1_1 (dinvT (F := F) a1) (wrapT (srcT a1)))
    (Host.gather gather_S10000_S210000x1_S210000_n_0_n_n_0_1_1 (dinvT (F := F) a1) (wrapT (dstT a1)))

def aggT (h : FVec F S10000x48 .f32) (a1 : IVec S2x200000 32) : FVec F S10000x48 .f32 :=
  Host.scatterAdd scatter_S10000x48_S210000x1_S210000x48_1_0_0_1
    (broadcastInDim S10000x48 ![] bcast_S_S10000x48 (constant S_ .f32 0x00000000#32))
    (colT (dstT a1))
    (mulf (Host.gather gather_S10000x48_S210000x1_S210000x48_1_0_n_n_0_1_148 h (wrapT (srcT a1)))
      (broadcastInDim S210000x48 ![0, 1] bcast_S210000x1_S210000x48_0_1
        (broadcastInDim S210000x1 ![0] bcast_S210000_S210000x1_0 (normT (F := F) a1))))

/-- The aggregation at entry `(i, k)`: the sum over the edges into `i` of the gathered row's entry `k` times
    the edge's weight. -/
theorem aggT_apply (h : FVec Ideal S10000x48 .f32) (a1 : IVec S2x200000 32) (i : Fin 10000) (k : Fin 48) :
    aggT (F := Ideal) h a1 (ix2 i k)
      = ∑ e ∈ Cert.Gcn.into (colT (dstT a1)) i, h (ix2 (Cert.Gcn.row (wrapT (srcT a1)) e) k) * normT (F := Ideal) a1 (ix1 e) := by
  unfold aggT Cert.Gcn.into Cert.Gcn.row
  exact Cert.Aggregate.aggregate_apply (by decide) _ rfl rfl rfl rfl _ rfl rfl rfl rfl rfl rfl rfl _ _ _ h _ _ _ i k

end Cert.KernelIdeal.Graph

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«157030_j23021024706912_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«157030_j23021024706912_2_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.Payloads.lean ====
/-
  The three kernel bodies, read at one entry of the block they store.

  The first body multiplies a block of 1000 feature rows by the whole 384 x 48 matrix; the second adds the
  offset row to a block of 1000 aggregated rows and clamps at zero; the third multiplies a block of 1000
  aggregated hidden rows by the whole 48 x 384 matrix and adds the offset row. The casts to a narrower
  float format and the casts to the same shape are the identity on the extended reals, and a product into
  the zero accumulator is the plain sum over the contracted coordinate.
-/
import proofs.«157030_j23021024706912_2_alg».proof.Proof.Gen.KernelIdeal.Skeleton
import proofs.«157030_j23021024706912_2_alg».proof.Proof.LibPlainRecord
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- Entry `(r, q)` of the first body's block: row `r` of the feature block against column `q` of the matrix. -/
theorem pay0_apply (x0 : Vec Ideal S1000x384 .f32) (x1 : Vec Ideal S384x48 .f32) (r : Fin 1000) (q : Fin 48) :
    k0_pay1 (F := Ideal) x0 x1 (ix2 r q) = ∑ c : Fin 384, x0 (ix2 r c) * x1 (ix2 c q) := by
  unfold k0_pay1
  refine (Cert.LibMatRows.matmul_rows (Cert.LibPlainRecord.rowsTimesMat_of_lists _ rfl rfl rfl rfl rfl rfl) _ _ r q).trans ?_
  refine Finset.sum_congr rfl fun c _ => ?_
  exact congrArg (fun z => x0 (ix2 r c) * z) (congrFun (shapeCast_self x1 Facts₀.shapeCasts_S384x48_S384x48) (ix2 c q))

/-- Entry `(r, q)` of the second body's block: the aggregated entry plus the offset's entry `q`, clamped at zero. -/
theorem pay1_apply (x0 : Vec Ideal S1000x48 .f32) (x1 : Vec Ideal S1x48 .f32) (r : Fin 1000) (q : Fin 48) :
    k1_pay1 (F := Ideal) x0 x1 (ix2 r q) = max (x0 (ix2 r q) + x1 (ix2 (0 : Fin 1) q)) 0 := by
  unfold k1_pay1
  show max (shapeCast S1000x48 x0 Facts₀.shapeCasts_S1000x48_S1000x48 (ix2 r q)
      + broadcastTo S1000x48 (shapeCast S1x48 x1 Facts₀.shapeCasts_S1x48_S1x48) Facts₀.broadcasts_S1x48_S1000x48 (ix2 r q))
      (Ideal.ofBits .f32 0x00000000#32) = _
  rw [shapeCast_self, broadcastTo_1b_ab_apply, shapeCast_self, Ideal.ofBits_zero_f32]

/-- Entry `(r, q)` of the third body's block: row `r` of the hidden block against column `q` of the matrix,
    plus the offset's entry `q`. -/
theorem pay2_apply (x0 : Vec Ideal S1000x48 .f32) (x1 : Vec Ideal S48x384 .f32) (x2 : Vec Ideal S1x384 .f32)
    (r : Fin 1000) (q : Fin 384) :
    k2_pay1 (F := Ideal) x0 x1 x2 (ix2 r q)
      = (∑ k : Fin 48, x0 (ix2 r k) * x1 (ix2 k q)) + x2 (ix2 (0 : Fin 1) q) := by
  unfold k2_pay1
  show (matmul (F := Ideal) dot_S1000x48_S48x384_S1000x384_1_0_0_1_n_n none
        (truncf .bf16 (shapeCast S1000x48 x0 Facts₀.shapeCasts_S1000x48_S1000x48) Facts₀.bitsLt_bf16_f32)
        (truncf .bf16 (shapeCast S48x384 x1 Facts₀.shapeCasts_S48x384_S48x384) Facts₀.bitsLt_bf16_f32)
        (constant (F := Ideal) S1000x384 .f32 0x00000000#32) (ix2 r q) : EReal)
      + broadcastTo S1000x384 (shapeCast S1x384 x2 Facts₀.shapeCasts_S1x384_S1x384) Facts₀.broadcasts_S1x384_S1000x384 (ix2 r q) = _
  rw [Cert.LibMatRows.matmul_rows (Cert.LibPlainRecord.rowsTimesMat_of_lists _ rfl rfl rfl rfl rfl rfl),
    broadcastTo_1b_ab_apply, shapeCast_self, shapeCast_self, shapeCast_self]
  rfl

end Cert.KernelIdeal.Pay

end
-- ==== Proof.Region0.lean ====
/-
  Region 0 as one function of the arrays it finds: the whole 10000 x 48 result.

  The grid has ten points; point `t` reads rows `1000 t … 1000 t + 999` of the features and the whole
  384 x 48 matrix, and writes rows `1000 t … 1000 t + 999` of the result. So entry `(p, q)` of the result,
  written by point `p / 1000`, is row `p` of the features against column `q` of the matrix, and the ten
  blocks cover the array.
-/
import proofs.«157030_j23021024706912_2_alg».proof.Proof.Gen.KernelIdeal.Frame
import proofs.«157030_j23021024706912_2_alg».proof.Proof.Payloads

set_option maxRecDepth 16384

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a 10000 x 384 array with a 384 x 48 array, entry by entry. -/
def G (a0 : S10000x384.Idx → Elt Ideal .f32) (a1 : S384x48.Idx → Elt Ideal .f32) : S10000x48.Idx → Elt Ideal .f32 :=
  fun i => ∑ c : Fin 384, a0 (ix2 (i 0) c) * a1 (ix2 c (i 1))

/-- The body's block at any index of the block. -/
theorem pay_at (x0 : Vec Ideal S1000x384 .f32) (x1 : Vec Ideal S384x48 .f32) (j : S1000x48.Idx) :
    k0_pay1 (F := Ideal) x0 x1 j = ∑ c : Fin 384, x0 (ix2 (j 0) c) * x1 (ix2 c (j 1)) := by
  have h := Cert.KernelIdeal.Pay.pay0_apply x0 x1 (j 0) (j 1)
  exact (congrArg (k0_pay1 (F := Ideal) x0 x1) (eq_ix2 j)).trans h

/-- The index maps over the ten points: the feature window and the result window move together down
    the rows, point `t` at block `t`; the matrix window stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G` of the two arrays. -/
theorem flushed_eq (c : Dev nD) (t : Fin cfg0.N) :
    (dat0 V c).flushed 2 t
      = ((cfg0.win 2).blk t).view.read (Elt Ideal) (G (V c main_arg0) (V c main_v30)) := by
  show (cfg0.win 2).cut (grid0.coords t) ((dat0 V c).after 2 t) = _
  rw [after0_2]
  unfold out0_2
  rw [View.canon_unit_zero hz]
  simp only [View.ld_unit_zero (S := S1000x384) hz, View.ld_unit_zero (S := S384x48) hz]
  obtain ⟨e0, e1, e2, e3, e4, e5⟩ := idx_facts t
  funext j
  show k0_pay1 (F := Ideal) (iblk0 V c 0 t) (iblk0 V c 1 t) j
    = G (V c main_arg0) (V c main_v30) (((cfg0.win 2).blk t).view.emb j)
  refine (pay_at (iblk0 V c 0 t) (iblk0 V c 1 t) j).trans ?_
  unfold G
  refine Finset.sum_congr rfl fun cc _ => ?_
  have h0 : iblk0 V c 0 t (ix2 (j 0) cc) = V c main_arg0 (ix2 ((((cfg0.win 2).blk t).view.emb j) 0) cc) := by
    show V c main_arg0 (((cfg0.win 0).blk t).view.emb (ix2 (j 0) cc)) = _
    refine congrArg (V c main_arg0) (funext fun a => Fin.ext ?_)
    match a with
    | ⟨0, _⟩ =>
      show win0_0.index t (0 : Fin 2) * 1000 + 1 * (j 0).val = win0_2.index t (0 : Fin 2) * 1000 + 1 * (j 0).val
      omega
    | ⟨1, _⟩ =>
      show win0_0.index t (1 : Fin 2) * 384 + 1 * cc.val = cc.val
      omega
  have h1 : iblk0 V c 1 t (ix2 cc (j 1)) = V c main_v30 (ix2 cc ((((cfg0.win 2).blk t).view.emb j) 1)) := by
    show V c main_v30 (((cfg0.win 1).blk t).view.emb (ix2 cc (j 1))) = _
    refine congrArg (V c main_v30) (funext fun a => Fin.ext ?_)
    match a with
    | ⟨0, _⟩ =>
      show win0_1.index t (0 : Fin 2) * 384 + 1 * cc.val = cc.val
      omega
    | ⟨1, _⟩ =>
      show win0_1.index t (1 : Fin 2) * 48 + 1 * (j 1).val = win0_2.index t (1 : Fin 2) * 48 + 1 * (j 1).val
      omega
  rw [h0, h1]

/-- An index of the result is in point `t`'s block iff each coordinate is in the block's range. -/
theorem mem_blk (t : Fin cfg0.N) (i : S10000x48.Idx) :
    i ∈ ((cfg0.win 2).blk t).view.set
      ↔ ∀ a : Fin 2, win0_2.index t a * S1000x48.size a ≤ (i a).val ∧ (i a).val < win0_2.index t a * S1000x48.size a + S1000x48.size a := by
  show i ∈ ((View.whole main_v31).slice (win0_2.rect t)).set ↔ _
  rw [View.set_slice_whole, Rect.mem_set_unit]
  exact Iff.rfl

/-- Every index of the result is in the block of the point its row falls in. -/
theorem cover (i : S10000x48.Idx) :
    ∃ t : Fin cfg0.N, (cfg0.win 2).flush t = true ∧ i ∈ ((cfg0.win 2).blk t).view.set := by
  have hi0 : (i 0).val < 10000 := (i 0).isLt
  have hi1 : (i 1).val < 48 := (i 1).isLt
  have hN : cfg0.N = 10 := N_0
  refine ⟨⟨(i 0).val / 1000, by rw [hN]; omega⟩, flush0_2 _, ?_⟩
  rw [mem_blk]
  obtain ⟨e0, e1, e2, e3, e4, e5⟩ := idx_facts ⟨(i 0).val / 1000, by rw [hN]; omega⟩
  intro a
  match a with
  | ⟨0, _⟩ =>
    show win0_2.index _ (0 : Fin 2) * 1000 ≤ (i 0).val ∧ (i 0).val < win0_2.index _ (0 : Fin 2) * 1000 + 1000
    rw [e4]
    show (i 0).val / 1000 * 1000 ≤ (i 0).val ∧ (i 0).val < (i 0).val / 1000 * 1000 + 1000
    omega
  | ⟨1, _⟩ =>
    show win0_2.index _ (1 : Fin 2) * 48 ≤ (i 1).val ∧ (i 1).val < win0_2.index _ (1 : Fin 2) * 48 + 48
    rw [e5]
    omega

/-- THE RESULT ARRAY after the region is `G` of the two arrays it read. -/
theorem final (c : Dev nD) : (dat0 V c).arrAt 2 cfg0.N = G (V c main_arg0) (V c main_v30) :=
  (dat0 V c).arrAt_eq_of_cover 2 (G (V c main_arg0) (V c main_v30)) (fun t _ => flushed_eq V c t) cover

end Cert.KernelIdeal.Reg0

end
-- ==== Proof.Region1.lean ====
/-
  Region 1 as one function of the arrays it finds: the whole 10000 x 48 hidden layer.

  Point `t` of the ten reads rows `1000 t … 1000 t + 999` of the aggregated array and the one offset row,
  and writes the same rows of the result: entry `(p, q)` is the aggregated entry plus the offset's entry
  `q`, clamped at zero. The ten blocks cover the array.
-/
import proofs.«157030_j23021024706912_2_alg».proof.Proof.Gen.KernelIdeal.Frame
import proofs.«157030_j23021024706912_2_alg».proof.Proof.Payloads

set_option maxRecDepth 16384

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A 10000 x 48 array plus a row, clamped at zero, entry by entry. -/
def G (a0 : S10000x48.Idx → Elt Ideal .f32) (a1 : S1x48.Idx → Elt Ideal .f32) : S10000x48.Idx → Elt Ideal .f32 :=
  fun i => max (a0 (ix2 (i 0) (i 1)) + a1 (ix2 (0 : Fin 1) (i 1))) 0

/-- The body's block at any index of the block. -/
theorem pay_at (x0 : Vec Ideal S1000x48 .f32) (x1 : Vec Ideal S1x48 .f32) (j : S1000x48.Idx) :
    k1_pay1 (F := Ideal) x0 x1 j = max (x0 (ix2 (j 0) (j 1)) + x1 (ix2 (0 : Fin 1) (j 1))) 0 := by
  have h := Cert.KernelIdeal.Pay.pay1_apply x0 x1 (j 0) (j 1)
  exact (congrArg (k1_pay1 (F := Ideal) x0 x1) (eq_ix2 j)).trans h

/-- The index maps over the ten points: the aggregated window and the result window move together down
    the rows, point `t` at block `t`; the offset window stays put. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `G` of the two arrays. -/
theorem flushed_eq (c : Dev nD) (t : Fin cfg1.N) :
    (dat1 V c).flushed 2 t
      = ((cfg1.win 2).blk t).view.read (Elt Ideal) (G (V c main_v44) (V c main_v45)) := by
  show (cfg1.win 2).cut (grid1.coords t) ((dat1 V c).after 2 t) = _
  rw [after1_2]
  unfold out1_2
  rw [View.canon_unit_zero hz]
  simp only [View.ld_unit_zero (S := S1000x48) hz, View.ld_unit_zero (S := S1x48) hz]
  obtain ⟨e0, e1, e2, e3, e4, e5⟩ := idx_facts t
  funext j
  show k1_pay1 (F := Ideal) (iblk1 V c 0 t) (iblk1 V c 1 t) j
    = G (V c main_v44) (V c main_v45) (((cfg1.win 2).blk t).view.emb j)
  refine (pay_at (iblk1 V c 0 t) (iblk1 V c 1 t) j).trans ?_
  unfold G
  have h0 : iblk1 V c 0 t (ix2 (j 0) (j 1))
      = V c main_v44 (ix2 ((((cfg1.win 2).blk t).view.emb j) 0) ((((cfg1.win 2).blk t).view.emb j) 1)) := by
    show V c main_v44 (((cfg1.win 0).blk t).view.emb (ix2 (j 0) (j 1))) = _
    refine congrArg (V c main_v44) (funext fun a => Fin.ext ?_)
    match a with
    | ⟨0, _⟩ =>
      show win1_0.index t (0 : Fin 2) * 1000 + 1 * (j 0).val = win1_2.index t (0 : Fin 2) * 1000 + 1 * (j 0).val
      omega
    | ⟨1, _⟩ =>
      show win1_0.index t (1 : Fin 2) * 48 + 1 * (j 1).val = win1_2.index t (1 : Fin 2) * 48 + 1 * (j 1).val
      omega
  have h1 : iblk1 V c 1 t (ix2 (0 : Fin 1) (j 1))
      = V c main_v45 (ix2 (0 : Fin 1) ((((cfg1.win 2).blk t).view.emb j) 1)) := by
    show V c main_v45 (((cfg1.win 1).blk t).view.emb (ix2 (0 : Fin 1) (j 1))) = _
    refine congrArg (V c main_v45) (funext fun a => Fin.ext ?_)
    match a with
    | ⟨0, _⟩ =>
      show win1_1.index t (0 : Fin 2) * 1 + 1 * 0 = 0
      omega
    | ⟨1, _⟩ =>
      show win1_1.index t (1 : Fin 2) * 48 + 1 * (j 1).val = win1_2.index t (1 : Fin 2) * 48 + 1 * (j 1).val
      omega
  rw [h0, h1]

/-- An index of the result is in point `t`'s block iff each coordinate is in the block's range. -/
theorem mem_blk (t : Fin cfg1.N) (i : S10000x48.Idx) :
    i ∈ ((cfg1.win 2).blk t).view.set
      ↔ ∀ a : Fin 2, win1_2.index t a * S1000x48.size a ≤ (i a).val ∧ (i a).val < win1_2.index t a * S1000x48.size a + S1000x48.size a := by
  show i ∈ ((View.whole main_v46).slice (win1_2.rect t)).set ↔ _
  rw [View.set_slice_whole, Rect.mem_set_unit]
  exact Iff.rfl

/-- Every index of the result is in the block of the point its row falls in. -/
theorem cover (i : S10000x48.Idx) :
    ∃ t : Fin cfg1.N, (cfg1.win 2).flush t = true ∧ i ∈ ((cfg1.win 2).blk t).view.set := by
  have hi0 : (i 0).val < 10000 := (i 0).isLt
  have hi1 : (i 1).val < 48 := (i 1).isLt
  have hN : cfg1.N = 10 := N_1
  refine ⟨⟨(i 0).val / 1000, by rw [hN]; omega⟩, flush1_2 _, ?_⟩
  rw [mem_blk]
  obtain ⟨e0, e1, e2, e3, e4, e5⟩ := idx_facts ⟨(i 0).val / 1000, by rw [hN]; omega⟩
  intro a
  match a with
  | ⟨0, _⟩ =>
    show win1_2.index _ (0 : Fin 2) * 1000 ≤ (i 0).val ∧ (i 0).val < win1_2.index _ (0 : Fin 2) * 1000 + 1000
    rw [e4]
    show (i 0).val / 1000 * 1000 ≤ (i 0).val ∧ (i 0).val < (i 0).val / 1000 * 1000 + 1000
    omega
  | ⟨1, _⟩ =>
    show win1_2.index _ (1 : Fin 2) * 48 ≤ (i 1).val ∧ (i 1).val < win1_2.index _ (1 : Fin 2) * 48 + 48
    rw [e5]
    omega

/-- THE RESULT ARRAY after the region is `G` of the two arrays it read. -/
theorem final (c : Dev nD) : (dat1 V c).arrAt 2 cfg1.N = G (V c main_v44) (V c main_v45) :=
  (dat1 V c).arrAt_eq_of_cover 2 (G (V c main_v44) (V c main_v45)) (fun t _ => flushed_eq V c t) cover

end Cert.KernelIdeal.Reg1

end
-- ==== Proof.Region2.lean ====
/-
  Region 2 as one function of the arrays it finds: the whole 10000 x 384 result.

  Point `t` of the ten reads rows `1000 t … 1000 t + 999` of the aggregated hidden layer, the whole 48 x 384
  matrix and the one offset row, and writes the same rows of the result: entry `(p, q)` is row `p` of the
  aggregated hidden layer against column `q` of the matrix, plus the offset's entry `q`. The ten blocks
  cover the array.
-/
import proofs.«157030_j23021024706912_2_alg».proof.Proof.Gen.KernelIdeal.Frame
import proofs.«157030_j23021024706912_2_alg».proof.Proof.Payloads

set_option maxRecDepth 16384

noncomputable section

open scoped BigOperators

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a 10000 x 48 array with a 48 x 384 array plus a row, entry by entry. -/
def G (a0 : S10000x48.Idx → Elt Ideal .f32) (a1 : S48x384.Idx → Elt Ideal .f32) (a2 : S1x384.Idx → Elt Ideal .f32) :
    S10000x384.Idx → Elt Ideal .f32 :=
  fun i => (∑ k : Fin 48, a0 (ix2 (i 0) k) * a1 (ix2 k (i 1))) + a2 (ix2 (0 : Fin 1) (i 1))

/-- The body's block at any index of the block. -/
theorem pay_at (x0 : Vec Ideal S1000x48 .f32) (x1 : Vec Ideal S48x384 .f32) (x2 : Vec Ideal S1x384 .f32) (j : S1000x384.Idx) :
    k2_pay1 (F := Ideal) x0 x1 x2 j
      = (∑ k : Fin 48, x0 (ix2 (j 0) k) * x1 (ix2 k (j 1))) + x2 (ix2 (0 : Fin 1) (j 1)) := by
  have h := Cert.KernelIdeal.Pay.pay2_apply x0 x1 x2 (j 0) (j 1)
  exact (congrArg (k2_pay1 (F := Ideal) x0 x1 x2) (eq_ix2 j)).trans h

/-- The index maps over the ten points: the hidden window and the result window move together down the
    rows, point `t` at block `t`; the matrix window and the offset window stay put. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G` of the three arrays. -/
theorem flushed_eq (c : Dev nD) (t : Fin cfg2.N) :
    (dat2 V c).flushed 3 t
      = ((cfg2.win 3).blk t).view.read (Elt Ideal) (G (V c main_v59) (V c main_v60) (V c main_v61)) := by
  show (cfg2.win 3).cut (grid2.coords t) ((dat2 V c).after 3 t) = _
  rw [after2_3]
  unfold out2_3
  rw [View.canon_unit_zero hz]
  simp only [View.ld_unit_zero (S := S1000x48) hz, View.ld_unit_zero (S := S48x384) hz, View.ld_unit_zero (S := S1x384) hz]
  obtain ⟨e0, e1, e2, e3, e4, e5, e6, e7⟩ := idx_facts t
  funext j
  show k2_pay1 (F := Ideal) (iblk2 V c 0 t) (iblk2 V c 1 t) (iblk2 V c 2 t) j
    = G (V c main_v59) (V c main_v60) (V c main_v61) (((cfg2.win 3).blk t).view.emb j)
  refine (pay_at (iblk2 V c 0 t) (iblk2 V c 1 t) (iblk2 V c 2 t) j).trans ?_
  unfold G
  have h2 : iblk2 V c 2 t (ix2 (0 : Fin 1) (j 1))
      = V c main_v61 (ix2 (0 : Fin 1) ((((cfg2.win 3).blk t).view.emb j) 1)) := by
    show V c main_v61 (((cfg2.win 2).blk t).view.emb (ix2 (0 : Fin 1) (j 1))) = _
    refine congrArg (V c main_v61) (funext fun a => Fin.ext ?_)
    match a with
    | ⟨0, _⟩ =>
      show win2_2.index t (0 : Fin 2) * 1 + 1 * 0 = 0
      omega
    | ⟨1, _⟩ =>
      show win2_2.index t (1 : Fin 2) * 384 + 1 * (j 1).val = win2_3.index t (1 : Fin 2) * 384 + 1 * (j 1).val
      omega
  rw [h2]
  refine congrArg (· + _) (Finset.sum_congr rfl fun kk _ => ?_)
  have h0 : iblk2 V c 0 t (ix2 (j 0) kk) = V c main_v59 (ix2 ((((cfg2.win 3).blk t).view.emb j) 0) kk) := by
    show V c main_v59 (((cfg2.win 0).blk t).view.emb (ix2 (j 0) kk)) = _
    refine congrArg (V c main_v59) (funext fun a => Fin.ext ?_)
    match a with
    | ⟨0, _⟩ =>
      show win2_0.index t (0 : Fin 2) * 1000 + 1 * (j 0).val = win2_3.index t (0 : Fin 2) * 1000 + 1 * (j 0).val
      omega
    | ⟨1, _⟩ =>
      show win2_0.index t (1 : Fin 2) * 48 + 1 * kk.val = kk.val
      omega
  have h1 : iblk2 V c 1 t (ix2 kk (j 1)) = V c main_v60 (ix2 kk ((((cfg2.win 3).blk t).view.emb j) 1)) := by
    show V c main_v60 (((cfg2.win 1).blk t).view.emb (ix2 kk (j 1))) = _
    refine congrArg (V c main_v60) (funext fun a => Fin.ext ?_)
    match a with
    | ⟨0, _⟩ =>
      show win2_1.index t (0 : Fin 2) * 48 + 1 * kk.val = kk.val
      omega
    | ⟨1, _⟩ =>
      show win2_1.index t (1 : Fin 2) * 384 + 1 * (j 1).val = win2_3.index t (1 : Fin 2) * 384 + 1 * (j 1).val
      omega
  rw [h0, h1]

/-- An index of the result is in point `t`'s block iff each coordinate is in the block's range. -/
theorem mem_blk (t : Fin cfg2.N) (i : S10000x384.Idx) :
    i ∈ ((cfg2.win 3).blk t).view.set
      ↔ ∀ a : Fin 2, win2_3.index t a * S1000x384.size a ≤ (i a).val ∧ (i a).val < win2_3.index t a * S1000x384.size a + S1000x384.size a := by
  show i ∈ ((View.whole main_v62).slice (win2_3.rect t)).set ↔ _
  rw [View.set_slice_whole, Rect.mem_set_unit]
  exact Iff.rfl

/-- Every index of the result is in the block of the point its row falls in. -/
theorem cover (i : S10000x384.Idx) :
    ∃ t : Fin cfg2.N, (cfg2.win 3).flush t = true ∧ i ∈ ((cfg2.win 3).blk t).view.set := by
  have hi0 : (i 0).val < 10000 := (i 0).isLt
  have hi1 : (i 1).val < 384 := (i 1).isLt
  have hN : cfg2.N = 10 := N_2
  refine ⟨⟨(i 0).val / 1000, by rw [hN]; omega⟩, flush2_3 _, ?_⟩
  rw [mem_blk]
  obtain ⟨e0, e1, e2, e3, e4, e5, e6, e7⟩ := idx_facts ⟨(i 0).val / 1000, by rw [hN]; omega⟩
  intro a
  match a with
  | ⟨0, _⟩ =>
    show win2_3.index _ (0 : Fin 2) * 1000 ≤ (i 0).val ∧ (i 0).val < win2_3.index _ (0 : Fin 2) * 1000 + 1000
    rw [e6]
    show (i 0).val / 1000 * 1000 ≤ (i 0).val ∧ (i 0).val < (i 0).val / 1000 * 1000 + 1000
    omega
  | ⟨1, _⟩ =>
    show win2_3.index _ (1 : Fin 2) * 384 ≤ (i 1).val ∧ (i 1).val < win2_3.index _ (1 : Fin 2) * 384 + 384
    rw [e7]
    omega

/-- THE RESULT ARRAY after the region is `G` of the three arrays it read. -/
theorem final (c : Dev nD) : (dat2 V c).arrAt 3 cfg2.N = G (V c main_v59) (V c main_v60) (V c main_v61) :=
  (dat2 V c).arrAt_eq_of_cover 3 (G (V c main_v59) (V c main_v60) (V c main_v61)) (fun t _ => flushed_eq V c t) cover

end Cert.KernelIdeal.Reg2

end
-- ==== Proof.KernelStages.lean ====
/-
  The kernel program's buffers at each boundary of its run, as functions of the six arguments.

  Before the first launch the host operations compute the edge lists, the edge weights and the transposed
  first weight matrix; the first launch leaves the projected features; the next stretch aggregates them
  and lays the first offset out as a row; the second launch leaves the hidden layer; the next stretch
  aggregates it, transposes the second weight matrix and lays the second offset out as a row; the third
  launch leaves the result. A buffer no segment writes keeps its contents across it.

  Each stretch of host operations is first read from ARBITRARY contents `V`, given what `V` holds at the
  buffers the stretch reads; the boundaries of the run are then instances.
-/
import proofs.«157030_j23021024706912_2_alg».proof.Proof.Gen.KernelIdeal.Frame
import proofs.«157030_j23021024706912_2_alg».proof.Proof.Graph
import proofs.«157030_j23021024706912_2_alg».proof.Proof.Region0
import proofs.«157030_j23021024706912_2_alg».proof.Proof.Region1
import proofs.«157030_j23021024706912_2_alg».proof.Proof.Region2

set_option maxRecDepth 16384

noncomputable section

open scoped BigOperators

namespace Cert.KernelIdeal.Stages

open Cert.KernelIdeal Cert.KernelIdeal.Gen Cert.KernelIdeal.Graph
open Idealize.ShloMosaic Idealize.ShloMosaic.TcCoe Idealize.SL.Sem Idealize.ShloMosaic.ValueIdx

/-! ## The stretches, from arbitrary contents -/

section Stretches

variable (V : Valuation τ sig (Elt Ideal)) (a1 : IVec S2x200000 32)

theorem s0_v3 (h1 : V (Proc.devRef .tc main_arg1) = a1) :
    StableHlo.after hostOps0 V (Proc.devRef .tc main_v3) = srcT a1 := by
  dsimp only [hostOps0]
  after_results
  rw [h1]
  rfl

theorem s0_v6 (h1 : V (Proc.devRef .tc main_arg1) = a1) :
    StableHlo.after hostOps0 V (Proc.devRef .tc main_v6) = dstT a1 := by
  dsimp only [hostOps0]
  after_results
  rw [h1]
  rfl

theorem s0_v12 (h1 : V (Proc.devRef .tc main_arg1) = a1) :
    StableHlo.after hostOps0 V (Proc.devRef .tc main_v12)
      = cmpf .ogt (degT (F := Ideal) a1) (broadcastInDim S10000 ![] Facts₀.bcast_S_S10000 (constant (F := Ideal) S_ .f32 0x00000000#32)) := by
  dsimp only [hostOps0]
  after_results
  rw [h1]
  rfl

theorem s0_v13 (h1 : V (Proc.devRef .tc main_arg1) = a1) :
    StableHlo.after hostOps0 V (Proc.devRef .tc main_v13) = Host.rsqrt (degT (F := Ideal) a1) := by
  dsimp only [hostOps0]
  after_results
  rw [h1]
  rfl

theorem s0_cst2 : StableHlo.after hostOps0 V (Proc.devRef .tc main_cst_2) = constant (F := Ideal) S_ .f32 0x00000000#32 := by
  dsimp only [hostOps0]
  after_results_simp <;> rfl

theorem s0_keep (b : Ref sig .tc) (hb : b ∈ [main_arg0, main_arg2, main_arg3, main_arg4, main_arg5]) :
    StableHlo.after hostOps0 V (Proc.devRef .tc b) = V (Proc.devRef .tc b) := by
  simp only [List.mem_cons, List.mem_singleton, List.not_mem_nil, or_false] at hb
  rcases hb with rfl | rfl | rfl | rfl | rfl <;> (dsimp only [hostOps0]; after_results_simp <;> rfl)

theorem s1_v14 (h12 : V (Proc.devRef .tc main_v12)
      = cmpf .ogt (degT (F := Ideal) a1) (broadcastInDim S10000 ![] Facts₀.bcast_S_S10000 (constant (F := Ideal) S_ .f32 0x00000000#32)))
    (h13 : V (Proc.devRef .tc main_v13) = Host.rsqrt (degT (F := Ideal) a1))
    (hc : V (Proc.devRef .tc main_cst_2) = constant (F := Ideal) S_ .f32 0x00000000#32) :
    StableHlo.after hostOps0_1 V (Proc.devRef .tc main_v14) = dinvT (F := Ideal) a1 := by
  dsimp only [hostOps0_1]
  after_results_simp
  rw [h12, h13, hc]
  unfold dinvT
  generalize degT (F := Ideal) a1 = D
  rfl

theorem s1_keep (b : Ref sig .tc) (hb : b ∈ [main_v3, main_v6, main_arg0, main_arg2, main_arg3, main_arg4, main_arg5]) :
    StableHlo.after hostOps0_1 V (Proc.devRef .tc b) = V (Proc.devRef .tc b) := by
  simp only [List.mem_cons, List.mem_singleton, List.not_mem_nil, or_false] at hb
  rcases hb with rfl | rfl | rfl | rfl | rfl | rfl | rfl <;> (dsimp only [hostOps0_1]; after_results_simp <;> rfl)

theorem s2_v29 (h14 : V (Proc.devRef .tc main_v14) = dinvT (F := Ideal) a1)
    (h3 : V (Proc.devRef .tc main_v3) = srcT a1) (h6 : V (Proc.devRef .tc main_v6) = dstT a1) :
    StableHlo.after hostOps0_2 V (Proc.devRef .tc main_v29) = normT (F := Ideal) a1 := by
  dsimp only [hostOps0_2]
  after_results_simp
  rw [h14, h3, h6]
  rfl

theorem s2_v30 (a2 : FVec Ideal S48x384 .f32) (h2 : V (Proc.devRef .tc main_arg2) = a2) :
    StableHlo.after hostOps0_2 V (Proc.devRef .tc main_v30)
      = transpose S384x48 [1, 0] a2 Facts₀.transposes_S48x384_S384x48_1_0 := by
  dsimp only [hostOps0_2]
  after_results_simp
  rw [h2]

theorem s2_keep (b : Ref sig .tc) (hb : b ∈ [main_v3, main_v6, main_arg0, main_arg3, main_arg4, main_arg5]) :
    StableHlo.after hostOps0_2 V (Proc.devRef .tc b) = V (Proc.devRef .tc b) := by
  simp only [List.mem_cons, List.mem_singleton, List.not_mem_nil, or_false] at hb
  rcases hb with rfl | rfl | rfl | rfl | rfl | rfl <;> (dsimp only [hostOps0_2]; after_results_simp <;> rfl)

/-- A stretch that aggregates: the rows `h` at the launch's result buffer, gathered, scaled and scatter-added. -/
theorem s3_v44 (h : FVec Ideal S10000x48 .f32) (h31 : V (Proc.devRef .tc main_v31) = h)
    (h3 : V (Proc.devRef .tc main_v3) = srcT a1) (h6 : V (Proc.devRef .tc main_v6) = dstT a1)
    (h29 : V (Proc.devRef .tc main_v29) = normT (F := Ideal) a1) :
    StableHlo.after hostOps1 V (Proc.devRef .tc main_v44) = aggT (F := Ideal) h a1 := by
  dsimp only [hostOps1]
  after_results_simp
  rw [h31, h3, h6, h29]
  rfl

theorem s3_v45 (a3 : FVec Ideal S48 .f32) (h3 : V (Proc.devRef .tc main_arg3) = a3) :
    StableHlo.after hostOps1 V (Proc.devRef .tc main_v45) = shapeCast S1x48 a3 Facts₀.shapeCasts_S48_S1x48 := by
  dsimp only [hostOps1]
  after_results_simp
  rw [h3]
  rfl

theorem s3_keep (b : Ref sig .tc) (hb : b ∈ [main_v3, main_v6, main_v29, main_arg4, main_arg5]) :
    StableHlo.after hostOps1 V (Proc.devRef .tc b) = V (Proc.devRef .tc b) := by
  simp only [List.mem_cons, List.mem_singleton, List.not_mem_nil, or_false] at hb
  rcases hb with rfl | rfl | rfl | rfl | rfl <;> (dsimp only [hostOps1]; after_results_simp <;> rfl)

theorem s4_v59 (h : FVec Ideal S10000x48 .f32) (h46 : V (Proc.devRef .tc main_v46) = h)
    (h3 : V (Proc.devRef .tc main_v3) = srcT a1) (h6 : V (Proc.devRef .tc main_v6) = dstT a1)
    (h29 : V (Proc.devRef .tc main_v29) = normT (F := Ideal) a1) :
    StableHlo.after hostOps2 V (Proc.devRef .tc main_v59) = aggT (F := Ideal) h a1 := by
  dsimp only [hostOps2]
  after_results_simp
  rw [h46, h3, h6, h29]
  rfl

theorem s4_v60 (a4 : FVec Ideal S384x48 .f32) (h4 : V (Proc.devRef .tc main_arg4) = a4) :
    StableHlo.after hostOps2 V (Proc.devRef .tc main_v60)
      = transpose S48x384 [1, 0] a4 Facts₀.transposes_S384x48_S48x384_1_0 := by
  dsimp only [hostOps2]
  after_results_simp
  rw [h4]

theorem s4_v61 (a5 : FVec Ideal S384 .f32) (h5 : V (Proc.devRef .tc main_arg5) = a5) :
    StableHlo.after hostOps2 V (Proc.devRef .tc main_v61) = shapeCast S1x384 a5 Facts₀.shapeCasts_S384_S1x384 := by
  dsimp only [hostOps2]
  after_results_simp
  rw [h5]
  rfl

end Stretches

/-! ## The boundaries of the run -/

variable (m : (ℓ : Loc nD τ sig) → Buf (Elt Ideal) ℓ) (ρ : Dev nD → PrngReg) (c : Dev nD)

theorem w0 (b : Ref sig .tc) : W0 m ρ c (Proc.devRef .tc b) = m ((c : Thread nD τ).loc b) := rfl

theorem w2_v14 : W2 m ρ c (Proc.devRef .tc main_v14) = dinvT (F := Ideal) (m ((c : Thread nD τ).loc main_arg1)) :=
  s1_v14 (W1 m ρ c) _ (s0_v12 (W0 m ρ c) _ rfl) (s0_v13 (W0 m ρ c) _ rfl) (s0_cst2 (W0 m ρ c))

theorem w2_v3 : W2 m ρ c (Proc.devRef .tc main_v3) = srcT (m ((c : Thread nD τ).loc main_arg1)) :=
  (s1_keep (W1 m ρ c) main_v3 (by simp)).trans (s0_v3 (W0 m ρ c) _ rfl)

theorem w2_v6 : W2 m ρ c (Proc.devRef .tc main_v6) = dstT (m ((c : Thread nD τ).loc main_arg1)) :=
  (s1_keep (W1 m ρ c) main_v6 (by simp)).trans (s0_v6 (W0 m ρ c) _ rfl)

theorem w2_arg (b : Ref sig .tc) (hb : b ∈ [main_arg0, main_arg2, main_arg3, main_arg4, main_arg5]) :
    W2 m ρ c (Proc.devRef .tc b) = m ((c : Thread nD τ).loc b) :=
  (s1_keep (W1 m ρ c) b (by simp only [List.mem_cons, List.mem_singleton, List.not_mem_nil, or_false] at hb ⊢; tauto)).trans
    (s0_keep (W0 m ρ c) b hb)

theorem w3_v3 : W3 m ρ c (Proc.devRef .tc main_v3) = srcT (m ((c : Thread nD τ).loc main_arg1)) :=
  (s2_keep (W2 m ρ c) main_v3 (by simp)).trans (w2_v3 m ρ c)
theorem w3_v6 : W3 m ρ c (Proc.devRef .tc main_v6) = dstT (m ((c : Thread nD τ).loc main_arg1)) :=
  (s2_keep (W2 m ρ c) main_v6 (by simp)).trans (w2_v6 m ρ c)
theorem w3_v29 : W3 m ρ c (Proc.devRef .tc main_v29) = normT (F := Ideal) (m ((c : Thread nD τ).loc main_arg1)) :=
  s2_v29 (W2 m ρ c) _ (w2_v14 m ρ c) (w2_v3 m ρ c) (w2_v6 m ρ c)
theorem w3_v30 : W3 m ρ c (Proc.devRef .tc main_v30) = transpose S384x48 [1, 0] (m ((c : Thread nD τ).loc main_arg2)) Facts₀.transposes_S48x384_S384x48_1_0 :=
  s2_v30 (W2 m ρ c) _ (w2_arg m ρ c main_arg2 (by simp))
theorem w3_arg (b : Ref sig .tc) (hb : b ∈ [main_arg0, main_arg3, main_arg4, main_arg5]) :
    W3 m ρ c (Proc.devRef .tc b) = m ((c : Thread nD τ).loc b) :=
  (s2_keep (W2 m ρ c) b (by simp only [List.mem_cons, List.mem_singleton, List.not_mem_nil, or_false] at hb ⊢; tauto)).trans
    (w2_arg m ρ c b (by simp only [List.mem_cons, List.mem_singleton, List.not_mem_nil, or_false] at hb ⊢; tauto))

/-- The first launch leaves the features projected by the first weight matrix. -/
theorem w4_v31 : W4 m ρ c (Proc.devRef .tc main_v31) = Reg0.G (m ((c : Thread nD τ).loc main_arg0)) (transpose S384x48 [1, 0] (m ((c : Thread nD τ).loc main_arg2)) Facts₀.transposes_S48x384_S384x48_1_0) :=
  (W4_arr m ρ c 2).trans ((Reg0.final (V3 m ρ) c).trans
    (congrArg₂ Reg0.G (w3_arg m ρ c main_arg0 (by simp)) (w3_v30 m ρ c)))

theorem w4_v3 : W4 m ρ c (Proc.devRef .tc main_v3) = srcT (m ((c : Thread nD τ).loc main_arg1)) :=
  (W4_of_ne m ρ c main_v3 (by decide)).trans (w3_v3 m ρ c)
theorem w4_v6 : W4 m ρ c (Proc.devRef .tc main_v6) = dstT (m ((c : Thread nD τ).loc main_arg1)) :=
  (W4_of_ne m ρ c main_v6 (by decide)).trans (w3_v6 m ρ c)
theorem w4_v29 : W4 m ρ c (Proc.devRef .tc main_v29) = normT (F := Ideal) (m ((c : Thread nD τ).loc main_arg1)) :=
  (W4_of_ne m ρ c main_v29 (by decide)).trans (w3_v29 m ρ c)
theorem w4_arg3 : W4 m ρ c (Proc.devRef .tc main_arg3) = (m ((c : Thread nD τ).loc main_arg3)) :=
  (W4_of_ne m ρ c main_arg3 (by decide)).trans (w3_arg m ρ c main_arg3 (by simp))
theorem w4_arg4 : W4 m ρ c (Proc.devRef .tc main_arg4) = (m ((c : Thread nD τ).loc main_arg4)) :=
  (W4_of_ne m ρ c main_arg4 (by decide)).trans (w3_arg m ρ c main_arg4 (by simp))
theorem w4_arg5 : W4 m ρ c (Proc.devRef .tc main_arg5) = (m ((c : Thread nD τ).loc main_arg5)) :=
  (W4_of_ne m ρ c main_arg5 (by decide)).trans (w3_arg m ρ c main_arg5 (by simp))

/-- The projected features, aggregated over the edges. -/
theorem w5_v44 : W5 m ρ c (Proc.devRef .tc main_v44) = aggT (F := Ideal) (Reg0.G (m ((c : Thread nD τ).loc main_arg0)) (transpose S384x48 [1, 0] (m ((c : Thread nD τ).loc main_arg2)) Facts₀.transposes_S48x384_S384x48_1_0)) (m ((c : Thread nD τ).loc main_arg1)) :=
  s3_v44 (W4 m ρ c) _ _ (w4_v31 m ρ c) (w4_v3 m ρ c) (w4_v6 m ρ c) (w4_v29 m ρ c)
theorem w5_v45 : W5 m ρ c (Proc.devRef .tc main_v45) = shapeCast S1x48 (m ((c : Thread nD τ).loc main_arg3)) Facts₀.shapeCasts_S48_S1x48 :=
  s3_v45 (W4 m ρ c) _ (w4_arg3 m ρ c)
theorem w5_v3 : W5 m ρ c (Proc.devRef .tc main_v3) = srcT (m ((c : Thread nD τ).loc main_arg1)) :=
  (s3_keep (W4 m ρ c) main_v3 (by simp)).trans (w4_v3 m ρ c)
theorem w5_v6 : W5 m ρ c (Proc.devRef .tc main_v6) = dstT (m ((c : Thread nD τ).loc main_arg1)) :=
  (s3_keep (W4 m ρ c) main_v6 (by simp)).trans (w4_v6 m ρ c)
theorem w5_v29 : W5 m ρ c (Proc.devRef .tc main_v29) = normT (F := Ideal) (m ((c : Thread nD τ).loc main_arg1)) :=
  (s3_keep (W4 m ρ c) main_v29 (by simp)).trans (w4_v29 m ρ c)
theorem w5_arg4 : W5 m ρ c (Proc.devRef .tc main_arg4) = (m ((c : Thread nD τ).loc main_arg4)) :=
  (s3_keep (W4 m ρ c) main_arg4 (by simp)).trans (w4_arg4 m ρ c)
theorem w5_arg5 : W5 m ρ c (Proc.devRef .tc main_arg5) = (m ((c : Thread nD τ).loc main_arg5)) :=
  (s3_keep (W4 m ρ c) main_arg5 (by simp)).trans (w4_arg5 m ρ c)

/-- The hidden layer as a function of the arguments. -/
abbrev hidT : FVec Ideal S10000x48 .f32 :=
  Reg1.G (aggT (F := Ideal) (Reg0.G (m ((c : Thread nD τ).loc main_arg0)) (transpose S384x48 [1, 0] (m ((c : Thread nD τ).loc main_arg2)) Facts₀.transposes_S48x384_S384x48_1_0)) (m ((c : Thread nD τ).loc main_arg1))) (shapeCast S1x48 (m ((c : Thread nD τ).loc main_arg3)) Facts₀.shapeCasts_S48_S1x48)

/-- The second launch leaves the hidden layer. -/
theorem w6_v46 : W6 m ρ c (Proc.devRef .tc main_v46) = hidT m c :=
  (W6_arr m ρ c 2).trans ((Reg1.final (V5 m ρ) c).trans (congrArg₂ Reg1.G (w5_v44 m ρ c) (w5_v45 m ρ c)))

theorem w6_v3 : W6 m ρ c (Proc.devRef .tc main_v3) = srcT (m ((c : Thread nD τ).loc main_arg1)) :=
  (W6_of_ne m ρ c main_v3 (by decide)).trans (w5_v3 m ρ c)
theorem w6_v6 : W6 m ρ c (Proc.devRef .tc main_v6) = dstT (m ((c : Thread nD τ).loc main_arg1)) :=
  (W6_of_ne m ρ c main_v6 (by decide)).trans (w5_v6 m ρ c)
theorem w6_v29 : W6 m ρ c (Proc.devRef .tc main_v29) = normT (F := Ideal) (m ((c : Thread nD τ).loc main_arg1)) :=
  (W6_of_ne m ρ c main_v29 (by decide)).trans (w5_v29 m ρ c)
theorem w6_arg4 : W6 m ρ c (Proc.devRef .tc main_arg4) = (m ((c : Thread nD τ).loc main_arg4)) :=
  (W6_of_ne m ρ c main_arg4 (by decide)).trans (w5_arg4 m ρ c)
theorem w6_arg5 : W6 m ρ c (Proc.devRef .tc main_arg5) = (m ((c : Thread nD τ).loc main_arg5)) :=
  (W6_of_ne m ρ c main_arg5 (by decide)).trans (w5_arg5 m ρ c)

theorem w7_v59 : W7 m ρ c (Proc.devRef .tc main_v59) = aggT (F := Ideal) (hidT m c) (m ((c : Thread nD τ).loc main_arg1)) :=
  s4_v59 (W6 m ρ c) _ _ (w6_v46 m ρ c) (w6_v3 m ρ c) (w6_v6 m ρ c) (w6_v29 m ρ c)
theorem w7_v60 : W7 m ρ c (Proc.devRef .tc main_v60)
    = transpose S48x384 [1, 0] (m ((c : Thread nD τ).loc main_arg4)) Facts₀.transposes_S384x48_S48x384_1_0 :=
  s4_v60 (W6 m ρ c) _ (w6_arg4 m ρ c)
theorem w7_v61 : W7 m ρ c (Proc.devRef .tc main_v61) = shapeCast S1x384 (m ((c : Thread nD τ).loc main_arg5)) Facts₀.shapeCasts_S384_S1x384 :=
  s4_v61 (W6 m ρ c) _ (w6_arg5 m ρ c)

/-- THE RESULT BUFFER at the end of the run, as one term of the six arguments. -/
theorem w8_v62 : W8 m ρ c (Proc.devRef .tc main_v62)
    = Reg2.G (aggT (F := Ideal) (hidT m c) (m ((c : Thread nD τ).loc main_arg1)))
        (transpose S48x384 [1, 0] (m ((c : Thread nD τ).loc main_arg4)) Facts₀.transposes_S384x48_S48x384_1_0)
        (shapeCast S1x384 (m ((c : Thread nD τ).loc main_arg5)) Facts₀.shapeCasts_S384_S1x384) :=
  (W8_arr m ρ c 3).trans ((Reg2.final (V7 m ρ) c).trans
    (by rw [show V7 m ρ c main_v59 = _ from w7_v59 m ρ c, show V7 m ρ c main_v60 = _ from w7_v60 m ρ c,
          show V7 m ρ c main_v61 = _ from w7_v61 m ρ c]))

end Cert.KernelIdeal.Stages

end
-- ==== Proof.KernelBridge.lean ====
/-
  The kernel program's result, entry by entry, is the specification's `kernelOut`.

  The first launch's product against the transposed first weight matrix is layer 1's projection; the
  second launch's clamp of the aggregated projection plus the first offset is the hidden layer; the third
  launch's product of the aggregated hidden layer against the transposed second weight matrix, plus the
  second offset, is the result.
-/
import proofs.«157030_j23021024706912_2_alg».proof.Proof.KernelStages
import Idealize.ShloMosaic.Lib.ValueLayout

set_option maxRecDepth 16384

noncomputable section

open scoped BigOperators

namespace Cert.KernelIdeal.Bridge

open Cert.KernelIdeal Cert.KernelIdeal.Gen Cert.KernelIdeal.Graph Cert.KernelIdeal.Stages
open Idealize.ShloMosaic Idealize.ShloMosaic.TcCoe Idealize.SL.Sem Idealize.ShloMosaic.ValueIdx

section Terms

variable (a0 : FVec Ideal S10000x384 .f32) (a1 : IVec S2x200000 32) (a2 : FVec Ideal S48x384 .f32)
  (a3 : FVec Ideal S48 .f32) (a4 : FVec Ideal S384x48 .f32) (a5 : FVec Ideal S384 .f32)

/-- The first launch's array is layer 1's projection. -/
theorem lin_apply (n : Fin 10000) (k : Fin 48) :
    Reg0.G a0 (transpose S384x48 [1, 0] a2 Facts₀.transposes_S48x384_S384x48_1_0) (ix2 n k) = Cert.Gcn.lin1 a0 a2 n k := by
  unfold Reg0.G Cert.Gcn.lin1
  show ∑ c : Fin 384, a0 (ix2 n c) * transpose S384x48 [1, 0] a2 Facts₀.transposes_S48x384_S384x48_1_0 (ix2 c k) = _
  refine Finset.sum_congr rfl fun c _ => ?_
  rw [transpose_ix2_apply]

/-- The second launch's array is the hidden layer. -/
theorem hid_apply (n : Fin 10000) (k : Fin 48) :
    (Reg1.G (aggT (F := Ideal) (Reg0.G a0 (transpose S384x48 [1, 0] a2 Facts₀.transposes_S48x384_S384x48_1_0)) a1) (shapeCast S1x48 a3 Facts₀.shapeCasts_S48_S1x48)) (ix2 n k)
      = Cert.Gcn.hid (wrapT (srcT a1)) (colT (dstT a1)) (normT (F := Ideal) a1) a0 a2 a3 n k := by
  unfold Reg1.G Cert.Gcn.hid Cert.Gcn.aggr
  show max (aggT (F := Ideal) (Reg0.G a0 (transpose S384x48 [1, 0] a2 Facts₀.transposes_S48x384_S384x48_1_0)) a1 (ix2 n k)
      + shapeCast S1x48 a3 Facts₀.shapeCasts_S48_S1x48 (ix2 (0 : Fin 1) k)) 0 = _
  rw [aggT_apply, shapeCast_a_1a_apply]
  refine congrArg (fun z => max (z + a3 (ix1 k)) 0) ?_
  exact Finset.sum_congr rfl fun e _ => congrArg (· * normT (F := Ideal) a1 (ix1 e)) (lin_apply a0 a2 _ k)

/-- The third launch's array is the kernel's result. -/
theorem out_apply (i : Fin 10000) (j : Fin 384) :
    Reg2.G (aggT (F := Ideal) (Reg1.G (aggT (F := Ideal) (Reg0.G a0 (transpose S384x48 [1, 0] a2 Facts₀.transposes_S48x384_S384x48_1_0)) a1) (shapeCast S1x48 a3 Facts₀.shapeCasts_S48_S1x48)) a1)
        (transpose S48x384 [1, 0] a4 Facts₀.transposes_S384x48_S48x384_1_0)
        (shapeCast S1x384 a5 Facts₀.shapeCasts_S384_S1x384) (ix2 i j)
      = Cert.Gcn.kernelOut (wrapT (srcT a1)) (colT (dstT a1)) (normT (F := Ideal) a1) a0 a2 a3 a4 a5 i j := by
  unfold Reg2.G Cert.Gcn.kernelOut Cert.Gcn.aggr
  show (∑ k : Fin 48, aggT (F := Ideal) (Reg1.G (aggT (F := Ideal) (Reg0.G a0 (transpose S384x48 [1, 0] a2 Facts₀.transposes_S48x384_S384x48_1_0)) a1) (shapeCast S1x48 a3 Facts₀.shapeCasts_S48_S1x48)) a1 (ix2 i k)
        * transpose S48x384 [1, 0] a4 Facts₀.transposes_S384x48_S48x384_1_0 (ix2 k j))
      + shapeCast S1x384 a5 Facts₀.shapeCasts_S384_S1x384 (ix2 (0 : Fin 1) j) = _
  rw [shapeCast_a_1a_apply]
  refine congrArg (· + a5 (ix1 j)) ?_
  refine Finset.sum_congr rfl fun kk _ => ?_
  rw [aggT_apply, transpose_ix2_apply]
  refine congrArg (· * a4 (ix2 j kk)) ?_
  exact Finset.sum_congr rfl fun e _ => congrArg (· * normT (F := Ideal) a1 (ix1 e)) (hid_apply a0 a1 a2 a3 _ kk)

end Terms

variable (m : (ℓ : Loc nD τ sig) → Buf (Elt Ideal) ℓ) (ρ : Dev nD → PrngReg) (c : Dev nD)

/-- THE KERNEL'S RESULT BUFFER at the end of its run, entry by entry, is `kernelOut` of the six arguments
    and the graph quantities computed from the edge list. -/
theorem kernel_value : W8 m ρ c (Proc.devRef .tc main_v62)
    = fun i => Cert.Gcn.kernelOut (wrapT (srcT (m ((c : Thread nD τ).loc main_arg1)))) (colT (dstT (m ((c : Thread nD τ).loc main_arg1)))) (normT (F := Ideal) (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) (i 0) (i 1) := by
  rw [w8_v62]
  funext i
  exact (congrArg (Reg2.G _ _ _) (eq_ix2 i)).trans (out_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1))

end Cert.KernelIdeal.Bridge

end
-- ==== Proof.NormReal.lean ====
/-
  The edge weights are real numbers.

  The degree of a node is a finite sum of ones: a natural number. Its reciprocal square root is taken
  only where the degree is positive, and is then the real `(√n)⁻¹`; elsewhere the value is zero. So the
  per-node factor is a real number at every node, and an edge's weight, the product of the factors at
  its two endpoints, is a real number.
-/
import proofs.«157030_j23021024706912_2_alg».proof.Proof.Graph

noncomputable section

open scoped BigOperators

namespace Cert.KernelIdeal.NormReal

open Idealize.ShloMosaic Idealize.ShloMosaic.ValueIdx Cert.KernelIdeal Cert.KernelIdeal.Graph Cert.Reals

/-- The word `0x3F800000` (biased exponent 127, significand zero, sign clear) denotes `1`. -/
theorem one_word : Ideal.ofBits .f32 0x3F800000#32 = 1 := by
  simp [Ideal.ofBits, Ideal.ieee]
  norm_cast
  norm_num

/-- The comparison "greater than" came out 1: the strict inequality holds on the extended reals. -/
theorem lt_of_cmp_ogt {x y : EReal} (h : Ideal.cmp .ogt x y = 1#1) : y < x := by
  by_contra hn
  have h1 : BitVec.ofBool (decide (y < x)) = 1#1 := h
  rw [decide_eq_false hn] at h1
  exact absurd h1 (by decide)

/-- The reciprocal square root of a positive real `r` is the real `(√r)⁻¹`. -/
theorem rsqrt_real {r : ℝ} (hr : 0 < r) : IsReal (Ideal.rsqrt (r : EReal)) := by
  rw [Ideal.rsqrt_coe, if_neg (not_lt.2 hr.le), if_neg hr.ne']
  exact ⟨_, rfl⟩

/-- The degree of node `i` is a natural number: the number of edges whose target is `i`. -/
theorem deg_apply (a1 : IVec S2x200000 32) (i : Fin 10000) :
    ∃ n : ℕ, degT (F := Ideal) a1 (ix1 i) = ((n : ℝ) : EReal) := by
  unfold degT
  rw [Cert.Aggregate.count_apply _ rfl rfl rfl rfl, one_word, Cert.Reals.sum_ones]
  exact ⟨_, rfl⟩

/-- The per-node factor is a real number: `(√n)⁻¹` where the degree `n` is positive, zero elsewhere. -/
theorem dinv_real (a1 : IVec S2x200000 32) (i : Fin 10000) :
    IsReal (dinvT (F := Ideal) a1 (ix1 i)) := by
  obtain ⟨n, hn⟩ := deg_apply a1 i
  unfold dinvT
  rw [select_apply, cmpf_apply, Cert.Aggregate.splat_apply, Cert.Aggregate.splat_apply]
  have hz : constant (F := Ideal) S_ .f32 (0#32) ix0 = 0 := Ideal.ofBits_zero_f32
  have hr : Host.rsqrt (degT (F := Ideal) a1) (ix1 i) = Ideal.rsqrt (degT (F := Ideal) a1 (ix1 i)) :=
    Ideal.hostUnary_rsqrt_def _
  rw [hr, hn, id, hz]
  unfold Scalar.select
  split
  · rename_i hc
    have hlt : (0 : EReal) < ((n : ℝ) : EReal) := lt_of_cmp_ogt hc
    have hpos : (0 : ℝ) < (n : ℝ) := by
      rw [← EReal.coe_zero, EReal.coe_lt_coe_iff] at hlt
      exact hlt
    exact rsqrt_real hpos
  · exact isReal_zero

/-- An edge's weight is a real number: the product of the per-node factors at its two endpoints. -/
theorem normT_real (a1 : IVec Cert.KernelIdeal.S2x200000 32) (e : Fin 210000) :
    Cert.Reals.IsReal (Cert.KernelIdeal.Graph.normT (F := Ideal) a1 (Idealize.ShloMosaic.ValueIdx.ix1 e)) := by
  unfold normT
  rw [mulf_apply,
    Cert.ScatterGather.gather1_apply (by decide) _ rfl rfl rfl rfl rfl rfl rfl,
    Cert.ScatterGather.gather1_apply (by decide) _ rfl rfl rfl rfl rfl rfl rfl]
  exact (dinv_real a1 _).mul (dinv_real a1 _)

end Cert.KernelIdeal.NormReal

end
-- ==== Proof.FiniteInputs.lean ====
/-
  Finite inputs are real.

  The certificate's precondition says of each float input `x` that `|x i| < +∞` at every index:
  the comparison bits are folded by `and` to one bit per input, and the five bits are joined by `and`.
  Read backwards: the joined bit is 1, so each input's bit is 1, so each comparison bit is 1, so
  `max (x i) (-(x i)) < ⊤` on the extended reals, which excludes both infinities: `x i` is a real number.
-/
import proofs.«157030_j23021024706912_2_alg».proof.Proof.Gen.Pre_finite_inputs
import proofs.«157030_j23021024706912_2_alg».proof.Proof.Reals
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs

/-- The rank-0 shape has one index. -/
instance : Subsingleton Cert.Pre_finite_inputs.S_.Idx := ⟨fun a b => funext fun d => d.elim0⟩

/-- The word `0x7F800000` (exponent all ones, significand zero, sign clear) denotes `+∞`. -/
theorem inf_word : Ideal.ofBits .f32 0x7F800000#32 = (⊤ : EReal) := by
  simp [Ideal.ofBits, Ideal.ieee]

/-- An extended real whose absolute value `max a (-a)` lies below `+∞` is a real number:
    at `⊤` the maximum is `⊤`, and at `⊥` it is `-⊥ = ⊤`. -/
theorem isReal_of_abs_lt_top (a : EReal) (h : max a (-a) < ⊤) : Cert.Reals.IsReal a := by
  induction a using EReal.rec with
  | bot => simp at h
  | coe r => exact ⟨r, rfl⟩
  | top => simp at h

/-- One comparison bit: `|a| < +∞` came out 1, so `a` is a real number. -/
theorem isReal_of_cmp (a : EReal)
    (h : FloatOps.cmpf (F := Ideal) (φ := .f32) .olt (FloatOps.hostAbsf (F := Ideal) (φ := .f32) a)
          (Ideal.ofBits .f32 0x7F800000#32) = 1#1) : Cert.Reals.IsReal a := by
  rw [inf_word] at h
  refine isReal_of_abs_lt_top a ?_
  by_contra hn
  have h' : Ideal.cmp .olt (max a (-a)) (⊤ : EReal) = 1#1 := h
  simp [Ideal.cmp, hn] at h'

/-- ONE INPUT. Over any shape `s`: if the fold by `and` of the bits `|x i| < +∞` is 1, every entry of `x`
    is a real number. -/
theorem entries_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ValueIdx.ix0 = 1#1)
    (i : s.Idx) : Cert.Reals.IsReal (x i) := by
  have hi := Host.reduce_andi_all _ init hr hu ValueIdx.ix0 e i
  rw [ValueIdx.cmpf_apply,
    broadcastInDim_apply (![] : Fin 0 → Fin s.rank) hb _ i ValueIdx.ix0 (fun a => a.elim0)] at hi
  exact isReal_of_cmp (x i) hi

/-- ALL FIVE INPUTS. The precondition's bit is 1, so every entry of every float input is a real number. -/
theorem args_real (a0 : FVec Ideal Cert.Pre_finite_inputs.S10000x384 .f32) (a1 : IVec Cert.Pre_finite_inputs.S2x200000 32) (a2 : FVec Ideal Cert.Pre_finite_inputs.S48x384 .f32) (a3 : FVec Ideal Cert.Pre_finite_inputs.S48 .f32) (a4 : FVec Ideal Cert.Pre_finite_inputs.S384x48 .f32) (a5 : FVec Ideal Cert.Pre_finite_inputs.S384 .f32)
    (h : Cert.Pre_finite_inputs.fn (F := Ideal) a0 a1 a2 a3 a4 a5 = fun _ => 1#1) :
    (∀ i, Cert.Reals.IsReal (a0 i)) ∧ (∀ i, Cert.Reals.IsReal (a2 i)) ∧ (∀ i, Cert.Reals.IsReal (a3 i)) ∧ (∀ i, Cert.Reals.IsReal (a4 i)) ∧ (∀ i, Cert.Reals.IsReal (a5 i)) := by
  have h0 := congrFun h ValueIdx.ix0
  dsimp only [Cert.Pre_finite_inputs.fn, Cert.Pre_finite_inputs.fn_part1] at h0
  obtain ⟨h0123, e5⟩ := IntOp.andi_eq_one.1 h0
  obtain ⟨h012, e4⟩ := IntOp.andi_eq_one.1 h0123
  obtain ⟨h01, e3⟩ := IntOp.andi_eq_one.1 h012
  obtain ⟨e0, e2⟩ := IntOp.andi_eq_one.1 h01
  exact ⟨entries_real a0 _ _ _ _ e0, entries_real a2 _ _ _ _ e2, entries_real a3 _ _ _ _ e3,
    entries_real a4 _ _ _ _ e4, entries_real a5 _ _ _ _ e5⟩

end Cert.Finite

end
-- ==== Proof.RefValue.lean ====
/-
  The reference's result, entry by entry.

  The reference computes a two-layer graph convolution on dense arrays. Read at one entry, every
  stage of it is an explicit expression in the inputs and in three terms that describe the graph: the
  word at which each edge's source row is gathered, the word to which each edge is scattered, and
  the edge's weight. This module reads the stages one after another and concludes that entry
  (i, j) of the result is the specification's "project by the second weight matrix, then aggregate over
  the edges into node i, then add the second offset".

  Layer 1. The features are multiplied by the transposed first weight matrix, so entry (n, k) of the
  product is the sum over c of x (n, c) * w1 (k, c). The rows of the product are gathered at the edges'
  source words (read signed, clamped into the node range), multiplied by the edge weights (broadcast
  along the 48 columns), and scatter-added into a zero matrix at the edges' target words: entry (n, k) of
  that sum is 0 plus the sum, over the edges whose target word read signed is n, of the gathered entry
  times the weight. The first offset is added along the rows and the sum is clamped below at zero.

  Layer 2. The hidden matrix is multiplied by the transposed second weight matrix, so entry (n, j) is the
  sum over k of hidden (n, k) * w2 (j, k); the rows are gathered, weighted and scatter-added exactly as in
  layer 1, at width 384, and the second offset is added. The reference recomputes the source word, the
  target word and the weight for layer 2 under other names; the recomputed terms are the same terms.
-/
import proofs.«157030_j23021024706912_2_alg».proof.Proof.RefReadP
import proofs.«157030_j23021024706912_2_alg».proof.Proof.GcnSpec
import proofs.«157030_j23021024706912_2_alg».proof.Proof.LibScatterGather

noncomputable section

open scoped BigOperators

namespace Cert.ReferenceIdeal.RefValue

open Cert.ReferenceIdeal Cert.ReferenceIdeal.Gen Cert.ReferenceIdeal.ReadP Idealize.ShloMosaic
  Idealize.ShloMosaic.ValueIdx Cert.ScatterGather

variable (a0 : (⟨S10000x384, .f32⟩ : BufTy).Contents (Elt Ideal))
  (a1 : (⟨S2x200000, .i32⟩ : BufTy).Contents (Elt Ideal))
  (a2 : (⟨S48x384, .f32⟩ : BufTy).Contents (Elt Ideal))
  (a3 : (⟨S48, .f32⟩ : BufTy).Contents (Elt Ideal))
  (a4 : (⟨S384x48, .f32⟩ : BufTy).Contents (Elt Ideal))
  (a5 : (⟨S384, .f32⟩ : BufTy).Contents (Elt Ideal))

/-! ## Layer 2's graph terms are layer 1's -/

/-- The source word layer 2 gathers at is the one layer 1 gathers at. -/
theorem v79_eq : val_main_v79 (F := Ideal) a1 = val_main_v37 (F := Ideal) a1 := rfl

/-- The target word layer 2 scatters to is the one layer 1 scatters to. -/
theorem v85_eq : val_main_v85 (F := Ideal) a1 = val_main_v43 (F := Ideal) a1 := rfl

/-- The edge weights layer 2 multiplies by are layer 1's. -/
theorem v73_eq : val_main_v73 (F := Ideal) a1 = val_main_v31 (F := Ideal) a1 := rfl

/-! ## Indices by coordinates -/

/-- Row n of the features at contraction coordinate c. -/
theorem lidx8 (n : Fin 10000) (k : Fin 48) (c : Fin 384) : lidx_main_v8 (ix2 n k) c = ix2 n c := by
  funext a; match a with | ⟨0, _⟩ => rfl | ⟨1, _⟩ => rfl

/-- Column k of the transposed first weight matrix at contraction coordinate c is entry (k, c). -/
theorem ridx8 (n : Fin 10000) (k : Fin 48) (c : Fin 384) :
    idx_main_v7 (ridx_main_v8 (ix2 n k) c) = ix2 k c := by
  funext a; match a with | ⟨0, _⟩ => rfl | ⟨1, _⟩ => rfl

/-- The weights broadcast along 48 columns read, in row e, the flat weight array's entry e. -/
theorem idx39_40 (e : Fin 210000) (k : Fin 48) : idx_main_v39 (idx_main_v40 (ix2 e k)) = ix1 e := by
  funext a; match a with | ⟨0, _⟩ => rfl

/-- The first offset broadcast along the rows reads, in column k, its entry k. -/
theorem idx45_46 (n : Fin 10000) (k : Fin 48) : idx_main_v45 (idx_main_v46 (ix2 n k)) = ix1 k := by
  funext a; match a with | ⟨0, _⟩ => rfl

/-- Row n of the hidden matrix at contraction coordinate k. -/
theorem lidx50 (n : Fin 10000) (j : Fin 384) (k : Fin 48) : lidx_main_v50 (ix2 n j) k = ix2 n k := by
  funext a; match a with | ⟨0, _⟩ => rfl | ⟨1, _⟩ => rfl

/-- Column j of the transposed second weight matrix at contraction coordinate k is entry (j, k). -/
theorem ridx50 (n : Fin 10000) (j : Fin 384) (k : Fin 48) :
    idx_main_v49 (ridx_main_v50 (ix2 n j) k) = ix2 j k := by
  funext a; match a with | ⟨0, _⟩ => rfl | ⟨1, _⟩ => rfl

/-- The weights broadcast along 384 columns read, in row e, the flat weight array's entry e. -/
theorem idx81_82 (e : Fin 210000) (j : Fin 384) : idx_main_v81 (idx_main_v82 (ix2 e j)) = ix1 e := by
  funext a; match a with | ⟨0, _⟩ => rfl

/-- The second offset broadcast along the rows reads, in column j, its entry j. -/
theorem idx87_88 (i : Fin 10000) (j : Fin 384) : idx_main_v87 (idx_main_v88 (ix2 i j)) = ix1 j := by
  funext a; match a with | ⟨0, _⟩ => rfl

/-! ## Layer 1 -/

/-- Entry (n, k) of the features times the transposed first weight matrix: row n against row k of w1. -/
theorem v8_apply (n : Fin 10000) (k : Fin 48) :
    val_main_v8 (F := Ideal) a0 a2 (ix2 n k) = Cert.Gcn.lin1 a0 a2 n k := by
  rw [val_main_v8_apply]
  unfold Cert.Gcn.lin1
  refine Finset.sum_congr rfl fun c _ => ?_
  rw [val_main_v7_apply, lidx8, ridx8]

/-- The gathered row of edge e is the projected row at e's source word, read signed and clamped. -/
theorem v38_apply (e : Fin 210000) (k : Fin 48) :
    val_main_v38 (F := Ideal) a0 a1 a2 (ix2 e k)
      = val_main_v8 (F := Ideal) a0 a2 (ix2 (Cert.Gcn.row (val_main_v37 (F := Ideal) a1) e) k) :=
  gather2_apply (by decide) gather_S10000x48_S210000x1_S210000x48_1_0_n_n_0_1_148 rfl rfl rfl rfl rfl rfl rfl
    (val_main_v8 (F := Ideal) a0 a2) (val_main_v37 (F := Ideal) a1) e k

/-- The weights, broadcast along the 48 columns. -/
theorem v40_apply (e : Fin 210000) (k : Fin 48) :
    val_main_v40 (F := Ideal) a1 (ix2 e k) = val_main_v31 (F := Ideal) a1 (ix1 e) :=
  (val_main_v40_apply a1 _).trans ((val_main_v39_apply a1 _).trans
    (congrArg (val_main_v31 (F := Ideal) a1) (idx39_40 e k)))

/-- Edge e's update row: its gathered projected row times its weight. -/
theorem v41_apply (e : Fin 210000) (k : Fin 48) :
    val_main_v41 (F := Ideal) a0 a1 a2 (ix2 e k)
      = Cert.Gcn.lin1 a0 a2 (Cert.Gcn.row (val_main_v37 (F := Ideal) a1) e) k
          * val_main_v31 (F := Ideal) a1 (ix1 e) := by
  rw [val_main_v41_apply, v38_apply, v8_apply, v40_apply]
  rfl

/-- The matrix layer 1 scatters into is zero. -/
theorem v42_apply (n : Fin 10000) (k : Fin 48) : val_main_v42 (F := Ideal) (ix2 n k) = (0 : EReal) :=
  (val_main_v42_apply _).trans ((val_main_cst_8_apply _).trans Ideal.ofBits_zero_f32)

/-- Layer 1's scatter-add: entry (n, k) is the weighted aggregation of the projected rows over the edges into n. -/
theorem v44_apply (n : Fin 10000) (k : Fin 48) :
    val_main_v44 (F := Ideal) a0 a1 a2 (ix2 n k)
      = Cert.Gcn.aggr (val_main_v37 (F := Ideal) a1) (val_main_v43 (F := Ideal) a1)
          (val_main_v31 (F := Ideal) a1) (Cert.Gcn.lin1 a0 a2) n k := by
  have h := scatterAdd2_apply scatter_S10000x48_S210000x1_S210000x48_1_0_0_1 rfl rfl rfl rfl
    (val_main_v42 (F := Ideal)) (val_main_v43 (F := Ideal) a1) (val_main_v41 (F := Ideal) a0 a1 a2) n k
  rw [v42_apply, zero_add] at h
  refine h.trans ?_
  unfold Cert.Gcn.aggr Cert.Gcn.into
  exact Finset.sum_congr rfl fun e _ => v41_apply a0 a1 a2 e k

/-- The first offset, broadcast along the rows. -/
theorem v46_apply (n : Fin 10000) (k : Fin 48) : val_main_v46 (F := Ideal) a3 (ix2 n k) = a3 (ix1 k) :=
  (val_main_v46_apply a3 _).trans ((val_main_v45_apply a3 _).trans (congrArg a3 (idx45_46 n k)))

/-- The matrix the clamp compares against is zero. -/
theorem call1_v0_apply (n : Fin 10000) (k : Fin 48) :
    val_main_call1_v0 (F := Ideal) (ix2 n k) = (0 : EReal) :=
  (val_main_call1_v0_apply _).trans ((val_main_call1_cst_apply _).trans Ideal.ofBits_zero_f32)

/-- THE HIDDEN LAYER: entry (n, k) is layer 1 aggregated, offset, clamped below at zero. -/
theorem hidden_apply (n : Fin 10000) (k : Fin 48) :
    val_main_v48 (F := Ideal) a0 a1 a2 a3 (ix2 n k)
      = Cert.Gcn.hid (val_main_v37 (F := Ideal) a1) (val_main_v43 (F := Ideal) a1)
          (val_main_v31 (F := Ideal) a1) a0 a2 a3 n k := by
  rw [val_main_v48_apply, val_main_v47_apply, v44_apply, v46_apply, call1_v0_apply]
  rfl

/-! ## Layer 2 -/

/-- Entry (n, j) of the hidden matrix times the transposed second weight matrix: hidden row n against row j of w2. -/
theorem v50_apply (n : Fin 10000) (j : Fin 384) :
    val_main_v50 (F := Ideal) a0 a1 a2 a3 a4 (ix2 n j)
      = ∑ k : Fin 48, Cert.Gcn.hid (val_main_v37 (F := Ideal) a1) (val_main_v43 (F := Ideal) a1)
          (val_main_v31 (F := Ideal) a1) a0 a2 a3 n k * a4 (ix2 j k) := by
  rw [val_main_v50_apply]
  refine Finset.sum_congr rfl fun k _ => ?_
  rw [val_main_v49_apply, lidx50, ridx50, hidden_apply]

/-- The gathered row of edge e is the projected hidden row at e's source word, read signed and clamped. -/
theorem v80_apply (e : Fin 210000) (j : Fin 384) :
    val_main_v80 (F := Ideal) a0 a1 a2 a3 a4 (ix2 e j)
      = val_main_v50 (F := Ideal) a0 a1 a2 a3 a4 (ix2 (Cert.Gcn.row (val_main_v37 (F := Ideal) a1) e) j) := by
  unfold val_main_v80
  rw [v79_eq]
  exact gather2_apply (by decide) gather_S10000x384_S210000x1_S210000x384_1_0_n_n_0_1_1384 rfl rfl rfl rfl rfl rfl rfl
    (val_main_v50 (F := Ideal) a0 a1 a2 a3 a4) (val_main_v37 (F := Ideal) a1) e j

/-- The weights, broadcast along the 384 columns. -/
theorem v82_apply (e : Fin 210000) (j : Fin 384) :
    val_main_v82 (F := Ideal) a1 (ix2 e j) = val_main_v31 (F := Ideal) a1 (ix1 e) :=
  (val_main_v82_apply a1 _).trans ((val_main_v81_apply a1 _).trans
    ((congrArg (val_main_v73 (F := Ideal) a1) (idx81_82 e j)).trans (congrFun (v73_eq a1) _)))

/-- Edge e's update row: its gathered projected hidden row times its weight. -/
theorem v83_apply (e : Fin 210000) (j : Fin 384) :
    val_main_v83 (F := Ideal) a0 a1 a2 a3 a4 (ix2 e j)
      = (∑ k : Fin 48, Cert.Gcn.hid (val_main_v37 (F := Ideal) a1) (val_main_v43 (F := Ideal) a1)
            (val_main_v31 (F := Ideal) a1) a0 a2 a3 (Cert.Gcn.row (val_main_v37 (F := Ideal) a1) e) k * a4 (ix2 j k))
          * val_main_v31 (F := Ideal) a1 (ix1 e) := by
  rw [val_main_v83_apply, v80_apply, v50_apply, v82_apply]
  rfl

/-- The matrix layer 2 scatters into is zero. -/
theorem v84_apply (i : Fin 10000) (j : Fin 384) : val_main_v84 (F := Ideal) (ix2 i j) = (0 : EReal) :=
  (val_main_v84_apply _).trans ((val_main_cst_19_apply _).trans Ideal.ofBits_zero_f32)

/-- Layer 2's scatter-add: entry (i, j) is the weighted sum of the projected hidden rows over the edges into i. -/
theorem v86_apply (i : Fin 10000) (j : Fin 384) :
    val_main_v86 (F := Ideal) a0 a1 a2 a3 a4 (ix2 i j)
      = ∑ e ∈ Cert.Gcn.into (val_main_v43 (F := Ideal) a1) i,
          (∑ k : Fin 48, Cert.Gcn.hid (val_main_v37 (F := Ideal) a1) (val_main_v43 (F := Ideal) a1)
              (val_main_v31 (F := Ideal) a1) a0 a2 a3 (Cert.Gcn.row (val_main_v37 (F := Ideal) a1) e) k * a4 (ix2 j k))
            * val_main_v31 (F := Ideal) a1 (ix1 e) := by
  unfold val_main_v86
  rw [v85_eq]
  have h := scatterAdd2_apply scatter_S10000x384_S210000x1_S210000x384_1_0_0_1 rfl rfl rfl rfl
    (val_main_v84 (F := Ideal)) (val_main_v43 (F := Ideal) a1) (val_main_v83 (F := Ideal) a0 a1 a2 a3 a4) i j
  rw [v84_apply, zero_add] at h
  refine h.trans ?_
  unfold Cert.Gcn.into
  exact Finset.sum_congr rfl fun e _ => v83_apply a0 a1 a2 a3 a4 e j

/-- The second offset, broadcast along the rows. -/
theorem v88_apply (i : Fin 10000) (j : Fin 384) : val_main_v88 (F := Ideal) a5 (ix2 i j) = a5 (ix1 j) :=
  (val_main_v88_apply a5 _).trans ((val_main_v87_apply a5 _).trans (congrArg a5 (idx87_88 i j)))

/-- THE RESULT: entry (i, j) of what the reference returns is the specification's reference result, at the
    source word, target word and edge weights the reference itself computes from the edge list. -/
theorem result_apply (i : Fin 10000) (j : Fin 384) :
    val_main_v89 (F := Ideal) a0 a1 a2 a3 a4 a5 (ix2 i j)
      = Cert.Gcn.refOut (val_main_v37 (F := Ideal) a1) (val_main_v43 (F := Ideal) a1)
          (val_main_v31 (F := Ideal) a1) a0 a2 a3 a4 a5 i j := by
  rw [val_main_v89_apply, v86_apply, v88_apply]
  rfl

end Cert.ReferenceIdeal.RefValue

end
-- ==== Proof.Algebraic.lean ====
/-
  The two idealized programs end with equal results.

  From memories agreeing on the six arguments: the kernel program ends with its result buffer at the
  specification's `kernelOut`, the reference with its result at the specification's `refOut`, both of the
  same arguments and of the same source words, target words and edge weights computed from the edge
  list; the precondition makes every float argument real, the edge weights are real by construction, and
  on real data the two specifications agree.
-/
import proofs.«157030_j23021024706912_2_alg».proof.Defs
import proofs.«157030_j23021024706912_2_alg».proof.Proof.KernelRun
import proofs.«157030_j23021024706912_2_alg».proof.Proof.KernelBridge
import proofs.«157030_j23021024706912_2_alg».proof.Proof.NormReal
import proofs.«157030_j23021024706912_2_alg».proof.Proof.FiniteInputs
import proofs.«157030_j23021024706912_2_alg».proof.Proof.RefValue

set_option maxRecDepth 16384

noncomputable section

namespace Cert.Proof.Alg

open Idealize.ShloMosaic Idealize.ShloMosaic.TcCoe Idealize.SL.Sem Idealize.ShloMosaic.ValueIdx Cert.Reals
open Cert.KernelIdeal.Graph

/-- The reference's wrapped source words are the kernel program's. -/
theorem g_eq (a1 : IVec Cert.KernelIdeal.S2x200000 32) :
    Cert.ReferenceIdeal.ReadP.val_main_v37 (F := Ideal) a1 = wrapT (srcT a1) := rfl

/-- The reference's target words are the kernel program's. -/
theorem d_eq (a1 : IVec Cert.KernelIdeal.S2x200000 32) :
    Cert.ReferenceIdeal.ReadP.val_main_v43 (F := Ideal) a1 = colT (dstT a1) := rfl

/-- The reference's edge weights are the kernel program's. -/
theorem n_eq (a1 : IVec Cert.KernelIdeal.S2x200000 32) :
    Cert.ReferenceIdeal.ReadP.val_main_v31 (F := Ideal) a1 = normT (F := Ideal) a1 := rfl

theorem algebraic : Cert.algebraic_KernelIdeal_ReferenceIdeal := by
  intro m ρ m' ρ' hpre hagree
  refine ⟨fun c => fun i => Cert.Gcn.kernelOut (wrapT (srcT (m ((c.tc : Thread Cert.KernelIdeal.nD Cert.KernelIdeal.τ).loc Cert.KernelIdeal.main_arg1)))) (colT (dstT (m ((c.tc : Thread Cert.KernelIdeal.nD Cert.KernelIdeal.τ).loc Cert.KernelIdeal.main_arg1)))) (normT (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1), ?_, ?_⟩
  · exact (θ_run Cert.KernelIdeal.defs _ _).mono
      (fun r h c => ⟨(h c).1.trans (Cert.KernelIdeal.Bridge.kernel_value m ρ c), (h c).2⟩)
      (Cert.KernelIdeal.RunV.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v89_eq, (hagree c).1, (hagree c).2.1, (hagree c).2.2.1, (hagree c).2.2.2.1,
      (hagree c).2.2.2.2.1, (hagree c).2.2.2.2.2]
    obtain ⟨h0, h2, h3, h4, h5⟩ := Cert.Finite.args_real _ _ _ _ _ _ (hpre c)
    funext i
    refine (congrArg (Cert.ReferenceIdeal.ReadP.val_main_v89 (F := Ideal) _ _ _ _ _ _) (eq_ix2 i)).trans ?_
    refine (Cert.ReferenceIdeal.RefValue.result_apply _ _ _ _ _ _ (i 0) (i 1)).trans ?_
    rw [g_eq, d_eq, n_eq]
    exact (Cert.Gcn.kernelOut_eq_refOut _ _ _ _ _ _ _ _
      (fun e => Eq.mpr (congrArg (fun z => IsReal (normT (F := Ideal) (m ((c.tc : Thread Cert.KernelIdeal.nD Cert.KernelIdeal.τ).loc Cert.KernelIdeal.main_arg1)) z)) (eq_ix1 e))
        (Cert.KernelIdeal.NormReal.normT_real _ (e 0)))
      h0 h2 h3 h4 (i 0) (i 1)).symm

end Cert.Proof.Alg

end
-- ==== Proof.lean ====
/-
  A two-layer graph convolution on 10000 nodes and 210000 edges (200000 given ones and one self-loop per
  node): the kernel program against its reference, on the extended reals.

  Both programs build the same edge lists, the same degree count and the same edge weights (the product
  of the two endpoints' reciprocal square-rooted degrees, zero where a degree vanishes). Layer 1 projects
  the 384 features to 48, aggregates over the edges into each node, adds an offset and clamps at zero.
  Layer 2 in the reference projects the hidden rows back to 384 and aggregates the projected rows; the
  kernel program aggregates the 48-wide hidden rows first and projects afterwards. Aggregation and
  projection are finite sums, so they commute as soon as every term is a real number: the float arguments
  are finite by the precondition, a degree is a count, and the weights are real by construction. The
  three frames are the programs' runs with the results dropped; the idealization rewrote nothing.
-/
import proofs.«157030_j23021024706912_2_alg».proof.Defs
import proofs.«157030_j23021024706912_2_alg».proof.Proof.Gen.Kernel
import proofs.«157030_j23021024706912_2_alg».proof.Proof.Gen.Kernel.Skeleton
import proofs.«157030_j23021024706912_2_alg».proof.Proof.Gen.Kernel.Launch
import proofs.«157030_j23021024706912_2_alg».proof.Proof.Gen.Kernel.Points
import proofs.«157030_j23021024706912_2_alg».proof.Proof.Gen.Kernel.Frame
import proofs.«157030_j23021024706912_2_alg».proof.Proof.Gen.KernelIdeal
import proofs.«157030_j23021024706912_2_alg».proof.Proof.Gen.KernelIdeal.Skeleton
import proofs.«157030_j23021024706912_2_alg».proof.Proof.Gen.KernelIdeal.Launch
import proofs.«157030_j23021024706912_2_alg».proof.Proof.Gen.KernelIdeal.Points
import proofs.«157030_j23021024706912_2_alg».proof.Proof.Gen.KernelIdeal.Frame
import proofs.«157030_j23021024706912_2_alg».proof.Proof.Gen.ReferenceIdeal
import proofs.«157030_j23021024706912_2_alg».proof.Proof.Gen.Pre_finite_inputs
import proofs.«157030_j23021024706912_2_alg».proof.Proof.RefRunP
import proofs.«157030_j23021024706912_2_alg».proof.Proof.Algebraic
import Idealize.ShloMosaic.Adequacy
import Idealize.ShloMosaic.Init

noncomputable section

namespace Cert.Proof

open Idealize.ShloMosaic Idealize.SL.Sem Cert.Kernel

/-- The kernel program as printed runs, and its arguments end unchanged. -/
theorem frame_kernel : Cert.frame_Kernel := fun m ρ _ => Cert.Kernel.Gen.frame m ρ

/-- The idealized kernel program runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Alg.algebraic⟩

end Cert.Proof

end
